-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x256 : Shape := ⟨2, ![8192, 256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64x1 .f32) (main_arg5 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg4
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S8192x8192 .f32) (main_arg1 : FVec F S8192x256 .f32) (main_arg2 : FVec F S256x64 .f32) (main_arg3 : FVec F S64 .f32) (main_arg4 : FVec F S64x1 .f32) (main_arg5 : FVec F S1 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S8192x8192 : Shape := ⟨2, ![8192, 8192]⟩
abbrev S8192x256 : Shape := ⟨2, ![8192, 256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x64 : Shape := ⟨2, ![1, 64]⟩
abbrev S1x1 : Shape := ⟨2, ![1, 1]⟩
abbrev S1x8192 : Shape := ⟨2, ![1, 8192]⟩
abbrev S1024x256 : Shape := ⟨2, ![1024, 256]⟩
abbrev S1x1024 : Shape := ⟨2, ![1, 1024]⟩
abbrev S1024x64 : Shape := ⟨2, ![1024, 64]⟩
abbrev S1024x1 : Shape := ⟨2, ![1024, 1]⟩
abbrev S1024x1024 : Shape := ⟨2, ![1024, 1024]⟩
abbrev S8192x1 : Shape := ⟨2, ![8192, 1]⟩

abbrev nBuf : Space → Nat
  | .hbm => 11
  | .vmem => 15
  | .smem => 0
  | _ => 0

abbrev bufTy : (tb : Table) → Fin (tcTables nBuf tb) → BufTy
  | .hbm, ⟨0, _⟩ => ⟨S8192x8192, .f32⟩
  | .hbm, ⟨1, _⟩ => ⟨S8192x256, .f32⟩
  | .hbm, ⟨2, _⟩ => ⟨S256x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S1x64, .f32⟩
  | .hbm, ⟨7, _⟩ => ⟨S1x1, .f32⟩
  | .hbm, ⟨8, _⟩ => ⟨S1x8192, .f32⟩
  | .hbm, ⟨9, _⟩ => ⟨S8192x256, .f32⟩
  | .hbm, ⟨10, _⟩ => ⟨S8192x1, .f32⟩
  | .local _ .vmem, ⟨0, _⟩ => ⟨S1024x256, .f32⟩
  | .local _ .vmem, ⟨1, _⟩ => ⟨S1024x256, .f32⟩
  | .local _ .vmem, ⟨2, _⟩ => ⟨S256x64, .f32⟩
  | .local _ .vmem, ⟨3, _⟩ => ⟨S1x64, .f32⟩
  | .local _ .vmem, ⟨4, _⟩ => ⟨S64x1, .f32⟩
  | .local _ .vmem, ⟨5, _⟩ => ⟨S1x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S8192x256, .f32⟩
  | .local _ .vmem, ⟨11, _⟩ => ⟨S1x8192, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k1_off2 (i : grid1.Coords) : Fin 2 → Nat :=
  let c0_1 : Index := 0#32
  let arg1 : BitVec 32 := BitVec.ofNat 32 (i 1).val
  let c1024_i32 : BitVec 32 := 1024#32
  let v3 : BitVec 32 := Scalar.muli arg1 c1024_i32
  let v4 : BitVec 32 := v3
  let v7 : Index := Scalar.indexCast v4
  ![0, v7.toNat]
def k1_cond2 (i : grid1.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_10 : BitVec 32 := 0#32
  let v27 : BitVec 1 := Scalar.cmpi .ne v26 c0_i32_10
  v27

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S64_S1x64 : S64.ShapeCasts S1x64
  shapeCasts_S1_S1x1 : S1.ShapeCasts S1x1
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  transposes_S1024x1_p1_0_S1x1024 : S1024x1.Transposes [1, 0] S1x1024
  inb_S1x1024_S1x1024_0_0 : ∀ a, (![0, 0] : Fin 2 → Nat) a + S1x1024.size a ≤ S1x1024.size a
  h_S1x1024 : 0 < S1x1024.numel
  shapeCasts_S1024x256_S1024x256 : S1024x256.ShapeCasts S1024x256
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  broadcasts_S1x1024_S1024x1024 : S1x1024.Broadcasts S1024x1024
  transposes_S1x8192_S8192x1_1_0 : S1x8192.Transposes [1, 0] S8192x1
  dot_S1024x256_S256x64_S1024x64_1_0_0_1_n_n_wf : DotDims.WF S1024x256 S256x64 S1024x64 [1] [0] [0] [1] [] []
  dot_S1024x64_S64x1_S1024x1_1_0_0_1_n_n_wf : DotDims.WF S1024x64 S64x1 S1024x1 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x256.size a ≤ S8192x256.size a
  k1_off2_inb : ∀ i : grid1.Coords, ∀ a, (k1_off2 i) a + S1x1024.size a ≤ S1x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .f32 = 32 ∨ (Rect.block (s := S8192x256) S8192x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8192.size a ≤ S1x8192.size a
  hwx1_2 : ∀ i : grid1.Coords, EltTy.bits .f32 = 32 ∨ (Rect.block (s := S1x8192) S1x8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .f32 = 32 ∨ (Rect.block (s := S8192x256) S1024x256.size (cc1_transform_3 i) (hinb1_3 i)).WholeWords (EltTy.packing .f32)

variable [Facts₀]

def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x8192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x256 : Shape := ⟨2, ![8192, 256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S8192x64 : Shape := ⟨2, ![8192, 64]⟩
abbrev S1x64 : Shape := ⟨2, ![1, 64]⟩
abbrev S_ : Shape := ⟨0, ![]⟩
abbrev S8192x1 : Shape := ⟨2, ![8192, 1]⟩
abbrev S1x1 : Shape := ⟨2, ![1, 1]⟩
abbrev S8192 : Shape := ⟨1, ![8192]⟩
abbrev S1x8192 : Shape := ⟨2, ![1, 8192]⟩

abbrev nBuf : Space → Nat
  | .hbm => 35
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x256, .f32⟩
  | .hbm, ⟨2, _⟩ => ⟨S256x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S8192x64, .f32⟩
  | .hbm, ⟨7, _⟩ => ⟨S1x64, .f32⟩
  | .hbm, ⟨8, _⟩ => ⟨S8192x64, .f32⟩
  | .hbm, ⟨9, _⟩ => ⟨S8192x64, .f32⟩
  | .hbm, ⟨10, _⟩ => ⟨S_, .f32⟩
  | .hbm, ⟨11, _⟩ => ⟨S8192x64, .f32⟩
  | .hbm, ⟨12, _⟩ => ⟨S8192x64, .f32⟩
  | .hbm, ⟨13, _⟩ => ⟨S8192x1, .f32⟩
  | .hbm, ⟨14, _⟩ => ⟨S1x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x8192, .f32⟩
  | .hbm, ⟨27, _⟩ => ⟨S8192x8192, .i1⟩
  | .hbm, ⟨28, _⟩ => ⟨S8192, .f32⟩
  | .hbm, ⟨29, _⟩ => ⟨S1x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x256, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_call1_v0 : Ref sig .tc := ⟨.hbm, 31, rfl⟩
abbrev main_call1_v1 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  bcast_S_S8192x8192 : S_.BroadcastsInDim S8192x8192 (![] : Fin 0 → Fin S8192x8192.rank)
  shapeCasts_S8192x1_S8192 : S8192x1.ShapeCasts S8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x256_S256x64_S8192x64_1_0_0_1_n_n_wf : DotDims.WF S8192x256 S256x64 S8192x64 [1] [0] [0] [1] [] []
  dot_S8192x64_S64x1_S8192x1_1_0_0_1_n_n_wf : DotDims.WF S8192x64 S64x1 S8192x1 [1] [0] [0] [1] [] []
  dot_S8192x8192_S8192x256_S8192x256_1_0_0_1_n_n_wf : DotDims.WF S8192x8192 S8192x256 S8192x256 [1] [0] [0] [1] [] []

variable [Facts₀]

def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.K.Frame0.lean ====
/-
  Region 0 of the kernel program (the gate row), the part that does not depend on the float instance.

  The pipeline of region 0 walks 8 grid points.  At point t it stages rows 1024·t … 1024·t + 1023 of the feature
  matrix (window 0), the two weight matrices and the two bias cells whole (windows 1–4, whose block index never
  moves), and an output block of 1024 entries of the gate row (window 5).  The body reads the five input buffers
  whole, reads its output buffer once without using the value, and overwrites the output buffer whole with one
  pure function of the five inputs.

  Stated here, for the buffer contents `V` the region is entered with:
  * `iblk0`      — the block of window w at point t, read off the array as found;
  * `before0_W`  — every input buffer holds its block at every point, fetched there or not (an unfetched window's
                    block index has not moved, so the previous block is this block);
  * `out0_5`     — what the body leaves in the output buffer: its single whole-buffer store, as a function of the inputs;
  * `sound_kernel0` — the body's triple: inputs kept, output buffer at `out0_5` of the inputs, whatever it held before;
  * `dat0`, `body_obligation0` — the proof data of the pipeline and the obligation of its body at every point.
-/
import proofs.«105632_j88545045774670_1_alg».proof.Proof.Gen.Kernel.Launch
import proofs.«105632_j88545045774670_1_alg».proof.Proof.Gen.Kernel.Skeleton
import proofs.«105632_j88545045774670_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 0 is entered: everything below is stated at this parameter
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not, for any proof data whose
    array is `V`'s (`hA`) and whose body leaves the block in place (`hafter`): where the window is not fetched its block
    index has not moved, so the block staged earlier is the block of this point. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not, for any proof data whose
    array is `V`'s (`hA`) and whose body leaves the block in place (`hafter`): where the window is not fetched its block
    index has not moved, so the block staged earlier is the block of this point. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not, for any proof data whose
    array is `V`'s (`hA`) and whose body leaves the block in place (`hafter`): where the window is not fetched its block
    index has not moved, so the block staged earlier is the block of this point. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not, for any proof data whose
    array is `V`'s (`hA`) and whose body leaves the block in place (`hafter`): where the window is not fetched its block
    index has not moved, so the block staged earlier is the block of this point. The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or not, for any proof data whose
    array is `V`'s (`hA`) and whose body leaves the block in place (`hafter`): where the window is not fetched its block
    index has not moved, so the block staged earlier is the block of this point. The window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_0 : Rect S1024x256 := Rect.unit (s := S1024x256) ![0, 0] S1024x256.size inb_S1024x256_S1024x256_0_0
abbrev r0_1 : Rect S256x64 := Rect.unit (s := S256x64) ![0, 0] S256x64.size inb_S256x64_S256x64_0_0
abbrev r0_2 : Rect S1x64 := Rect.unit (s := S1x64) ![0, 0] S1x64.size inb_S1x64_S1x64_0_0
abbrev r0_3 : Rect S64x1 := Rect.unit (s := S64x1) ![0, 0] S64x1.size inb_S64x1_S64x1_0_0
abbrev r0_4 : Rect S1x1 := Rect.unit (s := S1x1) ![0, 0] S1x1.size inb_S1x1_S1x1_0_0
abbrev r0_5 : Rect S1x1024 := Rect.unit (s := S1x1024) ![0, 0] S1x1024.size inb_S1x1024_S1x1024_0_0

/-! ## What the body leaves in the output window's buffer -/

/-- Window 5's buffer after the body, from the input windows' blocks: its one store, of the gate values of the
    1024 staged rows, laid over the whole buffer. -/
def out0_5 (x0 : Vec F S1024x256 .f32) (x1 : Vec F S256x64 .f32) (x2 : Vec F S1x64 .f32) (x3 : Vec F S64x1 .f32) (x4 : Vec F S1x1 .f32) : Vec F S1x1024 .f32 :=
  View.canon [⟨r0_5, k0_pay1 (View.ld x0 r0_0) (View.ld x1 r0_1) (View.ld x2 r0_2) (View.ld x3 r0_3) (View.ld x4 r0_4)⟩]

/-- The one store is of the whole buffer, so it covers it. -/
theorem cover0_5 (p0 : Vec F S1x1024 .f32) (y : S1x1024.Idx) :
    ∃ pc ∈ ([⟨r0_5, p0⟩] : List (View.Piece (Elt F) S1x1024 .f32)), y ∈ pc.1.set :=
  View.cover_of_tiled [⟨r0_5, p0⟩] S1x1024.size (by rfl) y

/-! ## The body's triple -/

set_option maxHeartbeats 1000000 in
/-- The body on whole staging memrefs, the inputs' at read contents `xW` and the output's at anything, runs to the
    continuation holding the inputs' as they were and the output's at `out0_5` of the inputs': the five loads read
    the inputs whole, the load of the output buffer reads a value nothing uses, and the store overwrites every cell. -/
theorem sound_kernel0 (c : Dev nD) (E : Set ℕ) (i : grid0.Coords)
    (arg1 : Memref sig .tc .vmem S1024x256 .f32) (harg1 : arg1.IsWhole) (arg2 : Memref sig .tc .vmem S256x64 .f32) (harg2 : arg2.IsWhole)
    (arg3 : Memref sig .tc .vmem S1x64 .f32) (harg3 : arg3.IsWhole) (arg4 : Memref sig .tc .vmem S64x1 .f32) (harg4 : arg4.IsWhole)
    (arg5 : Memref sig .tc .vmem S1x1 .f32) (harg5 : arg5.IsWhole) (arg6 : Memref sig .tc .vmem S1x1024 .f32) (harg6 : arg6.IsWhole)
    (x0 : Vec F S1024x256 .f32) (x1 : Vec F S256x64 .f32) (x2 : Vec F S1x64 .f32) (x3 : Vec F S64x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__e_kernel i arg1 harg1 arg2 harg2 arg3 harg3 arg4 harg4 arg5 harg5 arg6 harg6) K := by
  simp only [cc0__e_kernel_eq_skeleton]; unfold cc0__e_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them (`V`); after the body at point `t`
    each input's buffer at its block and the output's at `out0_5` of the input blocks; the invariant that of a body
    touching nothing else (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Frame1Runs.lean ====
/-
  Region 1 (the gated aggregation over a grid of 8 × 8 blocks), what its three control cases share.
  The body zeroes a VMEM accumulator at the first column block of a row of blocks (j = 0), adds one block
  product to it at every column block, and copies it to the output block at the last (j = 7). Point t of
  the grid is the pair (i, j) with t = 8 i + j, so the two conditions are t % 8 = 0 and t % 8 = 7; the
  output window is idle, and not written back, wherever the second fails. Everything here is stated at a
  parameter V: the buffers' contents when the region is entered.
-/
import proofs.«105632_j88545045774670_1_alg».proof.Proof.Gen.Kernel.Launch
import proofs.«105632_j88545045774670_1_alg».proof.Proof.Gen.Kernel.Skeleton
import proofs.«105632_j88545045774670_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- The first conditional's condition (the column block is the first), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- The second conditional's condition (the column block is the last). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S1024x256 .f32 := (Memref.whole cc1_stg3_0 : Memref sig .tc .vmem S1024x256 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8192 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from one point to the next. -/
abbrev scM1_0 : Memref sig .tc .vmem S1024x256 .f32 := Memref.whole cc1_scratch0
abbrev VS1_0 : View sig .tc .vmem S1024x256 .f32 := scM1_0.view

/-- The scoped buffers of the core that are neither a staging buffer of this region nor its accumulator
    (the first region's staging buffers), each whole at some contents. -/
def restS (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The class invariant with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Fr

end
-- ==== Proof.K.Frame1RunA.lean ====
/-
  Region 1's body in its case A: the first column block of a row of blocks (j = 0, and not the last): the accumulator is zeroed, then the block product is added; the output window is left untouched.
  The run is the symbolic execution of the printed body on whole staging memrefs; what each buffer ends with
  is found by that execution, as a list of the pieces stored (last first).
-/
import proofs.«105632_j88545045774670_1_alg».proof.Proof.K.Frame1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x1024 .f32) (x1 : Vec F S8192x256 .f32) (x2 : Vec F S1x8192 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨[], ?_, fun xi3 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.K.Frame1RunB.lean ====
/-
  Region 1's body in its case B: a column block that is neither the first nor the last (0 < j < 7): the block product is added to the accumulator the point before left; the output window is left untouched.
  The run is the symbolic execution of the printed body on whole staging memrefs; what each buffer ends with
  is found by that execution, as a list of the pieces stored (last first).
-/
import proofs.«105632_j88545045774670_1_alg».proof.Proof.K.Frame1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x1024 .f32) (x1 : Vec F S8192x256 .f32) (x2 : Vec F S1x8192 .f32) (xs0 : Vec F S1024x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨[], ?_, fun xi3 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.K.Frame1RunC.lean ====
/-
  Region 1's body in its case C: the last column block (j = 7): the block product is added to the accumulator the point before left, and the accumulator is copied whole into the output block.
  The run is the symbolic execution of the printed body on whole staging memrefs; what each buffer ends with
  is found by that execution, as a list of the pieces stored (last first).
-/
import proofs.«105632_j88545045774670_1_alg».proof.Proof.K.Frame1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x1024 .f32) (x1 : Vec F S8192x256 .f32) (x2 : Vec F S1x8192 .f32) (xs0 : Vec F S1024x256 .f32) :
    Σ' (L3 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.K.Frame1.lean ====
/-
  Region 1, the rest of its frame half: what each control case leaves in the output block and in the
  accumulator; the recursion over the grid's points (after point t the accumulator holds what the case at t
  computed from the point's blocks and, except at a first column block, from what point t − 1 left); the
  invariant that carries the accumulator from point to point; the proof data; and the body obligation, a case
  split on t % 8.
-/
import proofs.«105632_j88545045774670_1_alg».proof.Proof.K.Frame1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output window's staging buffer: its pieces read back (none: the window is idle at the case's points, neither written back nor read at the next point, so nothing consults this). -/
def out1_A_3 (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x1024 .f32) (x1 : Vec F S8192x256 .f32) (x2 : Vec F S1x8192 .f32) : Vec F S1024x256 .f32 :=
  VO1_3.read (Elt F) (VO1_3.writes (Elt F) VO1_3.junk (kernelRun1_A c i arg2 harg2 arg3 harg3 arg4 harg4 arg5 harg5 arg6 harg6 hc0 hc1 x0 x1 x2).1)

/-- Case A's stores into the accumulator cover it. -/
theorem scover1_A_0 (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x1024 .f32) (x1 : Vec F S8192x256 .f32) (x2 : Vec F S1x8192 .f32) (y : S1024x256.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x256.size (by sl_kernel_rfl) y

/-- What case A leaves in the accumulator: its pieces read back. -/
def sout1_A_0 (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x1024 .f32) (x1 : Vec F S8192x256 .f32) (x2 : Vec F S1x8192 .f32) : Vec F S1024x256 .f32 :=
  VS1_0.read (Elt F) (VS1_0.writes (Elt F) VS1_0.junk (kernelRun1_A c i arg2 harg2 arg3 harg3 arg4 harg4 arg5 harg5 arg6 harg6 hc0 hc1 x0 x1 x2).2.1)

/-- What case B leaves in the output window's staging buffer: its pieces read back (none: the window is idle at the case's points, neither written back nor read at the next point, so nothing consults this). -/
def out1_B_3 (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x1024 .f32) (x1 : Vec F S8192x256 .f32) (x2 : Vec F S1x8192 .f32) (xs0 : Vec F S1024x256 .f32) : Vec F S1024x256 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's stores into the accumulator cover it. -/
theorem scover1_B_0 (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x1024 .f32) (x1 : Vec F S8192x256 .f32) (x2 : Vec F S1x8192 .f32) (xs0 : Vec F S1024x256 .f32) (y : S1024x256.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x256.size (by sl_kernel_rfl) y

/-- What case B leaves in the accumulator: its pieces read back. -/
def sout1_B_0 (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x1024 .f32) (x1 : Vec F S8192x256 .f32) (x2 : Vec F S1x8192 .f32) (xs0 : Vec F S1024x256 .f32) : Vec F S1024x256 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- What case C leaves in the output window's staging buffer: its pieces read back. -/
def out1_C_3 (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x1024 .f32) (x1 : Vec F S8192x256 .f32) (x2 : Vec F S1x8192 .f32) (xs0 : Vec F S1024x256 .f32) : Vec F S1024x256 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's one store into the output block covers it. -/
theorem cover1_C_3 (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x1024 .f32) (x1 : Vec F S8192x256 .f32) (x2 : Vec F S1x8192 .f32) (xs0 : Vec F S1024x256 .f32) (y : S1024x256.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x256.size (by sl_kernel_rfl) y

/-- Case C's stores into the accumulator cover it. -/
theorem scover1_C_0 (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x1024 .f32) (x1 : Vec F S8192x256 .f32) (x2 : Vec F S1x8192 .f32) (xs0 : Vec F S1024x256 .f32) (y : S1024x256.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x256.size (by sl_kernel_rfl) y

/-- What case C leaves in the accumulator: its pieces read back. -/
def sout1_C_0 (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x1024 .f32) (x1 : Vec F S8192x256 .f32) (x2 : Vec F S1x8192 .f32) (xs0 : Vec F S1024x256 .f32) : Vec F S1024x256 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output block and the accumulator hold after each point -/

/-- After the body at position n: (the output window's staging buffer, the accumulator). -/
def outsAt1 (c : Dev nD) : (n : ℕ) → n < cfg1.N → Vec F S1024x256 .f32 × Vec F S1024x256 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point every scoped buffer that is no staging
    buffer of this region is at some contents; afterwards the accumulator is at what the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨Hr1, Hr2, Hr3, Hr4, Hr5, Hr6, Hr7, Hr8, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hr1 Hr2 Hr3 Hr4 Hr5 Hr6 Hr7 Hr8 HS0 Hg]
        · isplitl [Hr1 Hr2 Hr3 Hr4 Hr5 Hr6 Hr7 Hr8 HS0]
          · isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨Hr1, Hr2, Hr3, Hr4, Hr5, Hr6, Hr7, Hr8, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Hr1 Hr2 Hr3 Hr4 Hr5 Hr6 Hr7 Hr8 HS0 Hg]
        · isplitl [Hr1 Hr2 Hr3 Hr4 Hr5 Hr6 Hr7 Hr8 HS0]
          · isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨Hr1, Hr2, Hr3, Hr4, Hr5, Hr6, Hr7, Hr8, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [Hr1 Hr2 Hr3 Hr4 Hr5 Hr6 Hr7 Hr8 HS0 Hg]
        · isplitl [Hr1 Hr2 Hr3 Hr4 Hr5 Hr6 Hr7 Hr8 HS0]
          · isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨Hr1, Hr2, Hr3, Hr4, Hr5, Hr6, Hr7, Hr8, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hr1 Hr2 Hr3 Hr4 Hr5 Hr6 Hr7 Hr8 HS0 Hg]
        · isplitl [Hr1 Hr2 Hr3 Hr4 Hr5 Hr6 Hr7 Hr8 HS0]
          · isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr1, Hr2, Hr3, Hr4, Hr5, Hr6, Hr7, Hr8, HS0⟩, Hg⟩
  isplitl [Hr1 Hr2 Hr3 Hr4 Hr5 Hr6 Hr7 Hr8 HS0]
  · isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Fr

end
-- ==== Proof.K.Run.lean ====
/-
  The whole run of @main: two host reshapes, the gate region, the aggregation region, the host transpose.
  Between two items core c holds every unscoped buffer at a named valuation: the launch memory; after the
  reshapes; after region 0 (its output array at what its write-backs leave, everything else as entered);
  after region 1 likewise; after the transpose. Every weakly fair execution terminates, nothing faulting, with
  every unscoped buffer at the last valuation — the frame and the results are read off that.
-/
import proofs.«105632_j88545045774670_1_alg».proof.Proof.K.Frame0
import proofs.«105632_j88545045774670_1_alg».proof.Proof.K.Frame1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev Wl0 : Dev nD → Valuation τ sig (Elt F) := fun c b => m ((c : Dev nD), b)
/-- After the two reshapes (region 0's entry). -/
abbrev Wl1 : Dev nD → Valuation τ sig (Elt F) := fun c => StableHlo.after hostOps0 (Wl0 m c)
abbrev Vr1 : (c : Dev nD) → (b : Ref sig .tc) → Buf (Elt F) ((c : Thread nD τ).loc b) := fun c b => Wl1 m c b
/-- At region 0's exit (region 1's entry): its arrays at what the pipeline leaves, every other buffer as entered. -/
def Wl2 (c : Dev nD) : Valuation τ sig (Elt F) :=
  Pipeline.withArrays spec0 c (Wl1 m c) fun w => (dat0 (Vr1 m) c).arrAt w cfg0.N
theorem Wl2_arr (c : Dev nD) (w : Fin cfg0.W) :
    Wl2 m c (Proc.devRef .tc (Pipeline.arrRef spec0 w)) = (dat0 (Vr1 m) c).arrAt w cfg0.N := by
  unfold Wl2; exact Pipeline.withArrays_arr spec0 launch0.win.arr_inj c _ _ w
theorem Wl2_of_ne (c : Dev nD) (b : Ref sig .tc) (hb : ∀ w, Pipeline.arrRef spec0 w ≠ b) :
    Wl2 m c (Proc.devRef .tc b) = Wl1 m c (Proc.devRef .tc b) := by
  unfold Wl2; exact Pipeline.withArrays_of_ne spec0 c _ _ b hb
abbrev Vr2 : (c : Dev nD) → (b : Ref sig .tc) → Buf (Elt F) ((c : Thread nD τ).loc b) := fun c b => Wl2 m c b
theorem hF0 (c : Dev nD) (w : Fin cfg0.W) : (dat0 (Vr1 m) c).arrAt w cfg0.N = Vr2 m c (Pipeline.arrRef spec0 w) :=
  (Wl2_arr m c w).symm
theorem hrest0 (c : Dev nD) : ∀ b, b ∉ Finset.univ.image (Pipeline.arrRef spec0) → Vr2 m c b = Vr1 m c b :=
  fun b hb => Wl2_of_ne m c b fun w e => hb (Finset.mem_image.mpr ⟨w, Finset.mem_univ _, e⟩)
/-- At region 1's exit. -/
def Wl3 (c : Dev nD) : Valuation τ sig (Elt F) :=
  Pipeline.withArrays spec1 c (Wl2 m c) fun w => (dat1 (Vr2 m) c).arrAt w cfg1.N
theorem Wl3_arr (c : Dev nD) (w : Fin cfg1.W) :
    Wl3 m c (Proc.devRef .tc (Pipeline.arrRef spec1 w)) = (dat1 (Vr2 m) c).arrAt w cfg1.N := by
  unfold Wl3; exact Pipeline.withArrays_arr spec1 launch1.win.arr_inj c _ _ w
theorem Wl3_of_ne (c : Dev nD) (b : Ref sig .tc) (hb : ∀ w, Pipeline.arrRef spec1 w ≠ b) :
    Wl3 m c (Proc.devRef .tc b) = Wl2 m c (Proc.devRef .tc b) := by
  unfold Wl3; exact Pipeline.withArrays_of_ne spec1 c _ _ b hb
abbrev Vr3 : (c : Dev nD) → (b : Ref sig .tc) → Buf (Elt F) ((c : Thread nD τ).loc b) := fun c b => Wl3 m c b
theorem hF1 (c : Dev nD) (w : Fin cfg1.W) : (dat1 (Vr2 m) c).arrAt w cfg1.N = Vr3 m c (Pipeline.arrRef spec1 w) :=
  (Wl3_arr m c w).symm
theorem hrest1 (c : Dev nD) : ∀ b, b ∉ Finset.univ.image (Pipeline.arrRef spec1) → Vr3 m c b = Vr2 m c b :=
  fun b hb => Wl3_of_ne m c b fun w e => hb (Finset.mem_image.mpr ⟨w, Finset.mem_univ _, e⟩)
/-- After the transpose: the end. -/
abbrev Wl4 : Dev nD → Valuation τ sig (Elt F) := fun c => StableHlo.after hostOps2 (Wl3 m c)

/-! ## The proof data family and the thread state -/

abbrev hadm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) hadm p) c
  | ⟨0, _⟩ => fun c => dat0 (Vr1 m) c
  | ⟨1, _⟩ => fun c => dat1 (Vr2 m) c
abbrev 𝒱r : Variants := Variants.none
abbrev Lr : GSem nD τ sig → Finset Unit := fun _ => ∅
abbrev lvr : GSem nD τ sig → Unit → ℕ := fun _ _ => 0
/-- What rides beside the buffers through every item: the generator register at some state, and nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem hostOps0_fr : (hostOps0 : List (HloOp τ sig (Elt F))).Forall fun op => op.fresh = ∅ := by
  simp only [List.Forall]; repeat' constructor
theorem hostOps2_fr : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (Wl4 m c) ∗ ∃ r, prngReg c r)

/-! ## The regions as segments -/

set_option backward.isDefEq.respectTransparency.types false in
/-- Region 0 over the thread state "every unscoped buffer at the boundary's contents, the generator register at some
    state, nothing owed": its arrays are split out of the unscoped buffers on entry and put back at what the
    write-backs leave on exit; the kernel has no semaphore of its own. -/
def reg0 : Pipeline.RegionSeg (pcfgs (F := F)) hadm (pdats m) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ Lr lvr 0 fun _ _ => rfl
  pre c := iprop(StableHlo.held (c : Thread nD τ) (Pipeline.ucRefs τ sig) (Wl1 m c) ∗ Rr c)
  post c := iprop(StableHlo.held (c : Thread nD τ) (Pipeline.ucRefs τ sig) (Wl2 m c) ∗ Rr c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) hadm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays are split out of the unscoped buffers on entry and put back at what the
    write-backs leave on exit; the kernel has no semaphore of its own. -/
def reg1 : Pipeline.RegionSeg (pcfgs (F := F)) hadm (pdats m) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (Vr2 m) c).loose
  hwaits := Pipeline.hwaits_of_owed_zero _ _ _ _ Lr lvr 1 fun _ _ => rfl
  pre c := iprop(StableHlo.held (c : Thread nD τ) (Pipeline.ucRefs τ sig) (Wl2 m c) ∗ Rr c)
  post c := iprop(StableHlo.held (c : Thread nD τ) (Pipeline.ucRefs τ sig) (Wl3 m c) ∗ Rr c)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit := Pipeline.arrays_of_unscopedBufs (p := 1) (pcfgs (F := F)) hadm (pdats m) launch1.win launch1.arr_whole c
      ((pdats m 1 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Vr2 m) c)
    unfold Pipeline.ΦA
    iintro ⟨Hp, -, Hr⟩
    isplitl [Hr]; · iexact Hr
    iexact Hp
  hout c := by
    rw [Pipeline.ownSems0_none]
    refine (hout1 (Vr2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m) ((pdats m 1 c).share_full fun _ => rfl)
      (Vr2 m c) (Vr3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev hsegs : List (Pipeline.Seg (pcfgs (F := F)) hadm (pdats m) () defs₀ 𝒱r Lr lvr) :=
  [ .host (hseg hostOps0 hostOps0_sub hostOps0_fr (Wl0 m)),
    .region (reg0 m),
    .region (reg1 m),
    .host (hseg hostOps2 hostOps2_sub hostOps2_fr (Wl3 m)) ]
theorem main_run (c : Dev nD) : main (F := F) c = Pipeline.Seg.run (hsegs m) := (main_chain c).trans (by chain_rfl)

set_option backward.isDefEq.respectTransparency.types false in
/-- From any memory with zero counters every weakly fair execution of @main terminates, nothing faulting, and every
    final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wl4 m c b) :=
  Pipeline.θ_run_regions_kit (pcfgs (F := F)) hadm (pdats m) () cellOf_inj emb₁ defs₀ 𝒱r Lr lvr m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl0 m c) ∗ Rr c)) (Tₙ := Tlast m)
    (hch := ⟨fun _ => .rfl, fun _ => .rfl, fun _ => .rfl, fun _ => .rfl, fun c => by
      show iprop(StableHlo.held (c : Thread nD τ) (Pipeline.ucRefs τ sig) (Wl4 m c) ∗ Rr c) ⊢ _
      iintro ⟨Hh, Hp, HO⟩
      isplitl [Hh Hp]
      · isplitl [Hh]; · iexact Hh
        iexact Hp
      iexact HO⟩)
    (hinit := by
      refine Pipeline.initEach Lr lvr fun c => ?_
      rw [show unscopedBufs c (fun b => m ((c : Thread nD τ).loc b)) = StableHlo.held (c : Thread nD τ) (Pipeline.ucRefs τ sig) (Wl0 m c)
        from Pipeline.unscopedBufs_held c (Wl0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wl4 m c b)
    (hfin := fun c s' => by
      iintro ⟨⟨Hh, -⟩, HSI⟩
      unfold StableHlo.held
      imodintro
      iapply (pointsTo_read_all (Pipeline.ucRefs τ sig) (fun b => (((c : Thread nD τ)).1, b)) (Wl4 m c) s')
      isplitl [Hh] <;> iassumption)
    (hQ := fun s h c => h c)

end Cert.Kernel.Fr

end
-- ==== Proof.K.Args.lean ====
/-
  The run's boundary valuations read at the buffers the claims speak of. No host operation and no region writes
  an argument array (a region reads it through an input window or never touches it), so each argument's buffer
  walks back to the launch memory; region 1 finds the adjacency and the features as launched and the gate row as
  region 0 left it; the first result is what region 1's write-backs leave, the second the transpose of the gate row.
-/
import proofs.«105632_j88545045774670_1_alg».proof.Proof.K.Run
import proofs.«105632_j88545045774670_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem Wl1_of (c : Dev nD) (r : Ref sig .tc) (h : r ∉ hostOps0_W) : Wl1 m c r = Wl0 m c r :=
  StableHlo.after_of_writes_sub hostOps0 _ hostOps0_writes h
theorem Wl4_of (c : Dev nD) (r : Ref sig .tc) (h : r ∉ hostOps2_W) : Wl4 m c r = Wl3 m c r :=
  StableHlo.after_of_writes_sub hostOps2 _ hostOps2_writes h

theorem Wl2_main_arg0 (c : Dev nD) : Wl2 m c (Proc.devRef .tc main_arg0) = m ((c : Thread nD τ).loc main_arg0) :=
  (Wl2_of_ne m c main_arg0 (by decide)).trans ((Wl1_of m c main_arg0 (by decide)).trans rfl)
theorem Wl4_main_arg0 (c : Dev nD) : Wl4 m c (Proc.devRef .tc main_arg0) = m ((c : Thread nD τ).loc main_arg0) :=
  (Wl4_of m c main_arg0 (by decide)).trans (((Wl3_arr m c 0).trans (((dat1 (Vr2 m) c).arrAt_in 0 rfl _).trans (A_eq1 (Vr2 m) c 0))).trans (Wl2_main_arg0 m c))
theorem Wl2_main_arg1 (c : Dev nD) : Wl2 m c (Proc.devRef .tc main_arg1) = m ((c : Thread nD τ).loc main_arg1) :=
  ((Wl2_arr m c 0).trans (((dat0 (Vr1 m) c).arrAt_in 0 rfl _).trans (A_eq0 (Vr1 m) c 0))).trans ((Wl1_of m c main_arg1 (by decide)).trans rfl)
theorem Wl4_main_arg1 (c : Dev nD) : Wl4 m c (Proc.devRef .tc main_arg1) = m ((c : Thread nD τ).loc main_arg1) :=
  (Wl4_of m c main_arg1 (by decide)).trans (((Wl3_arr m c 1).trans (((dat1 (Vr2 m) c).arrAt_in 1 rfl _).trans (A_eq1 (Vr2 m) c 1))).trans (Wl2_main_arg1 m c))
theorem Wl2_main_arg2 (c : Dev nD) : Wl2 m c (Proc.devRef .tc main_arg2) = m ((c : Thread nD τ).loc main_arg2) :=
  ((Wl2_arr m c 1).trans (((dat0 (Vr1 m) c).arrAt_in 1 rfl _).trans (A_eq0 (Vr1 m) c 1))).trans ((Wl1_of m c main_arg2 (by decide)).trans rfl)
theorem Wl4_main_arg2 (c : Dev nD) : Wl4 m c (Proc.devRef .tc main_arg2) = m ((c : Thread nD τ).loc main_arg2) :=
  (Wl4_of m c main_arg2 (by decide)).trans ((Wl3_of_ne m c main_arg2 (by decide)).trans (Wl2_main_arg2 m c))
theorem Wl2_main_arg3 (c : Dev nD) : Wl2 m c (Proc.devRef .tc main_arg3) = m ((c : Thread nD τ).loc main_arg3) :=
  (Wl2_of_ne m c main_arg3 (by decide)).trans ((Wl1_of m c main_arg3 (by decide)).trans rfl)
theorem Wl4_main_arg3 (c : Dev nD) : Wl4 m c (Proc.devRef .tc main_arg3) = m ((c : Thread nD τ).loc main_arg3) :=
  (Wl4_of m c main_arg3 (by decide)).trans ((Wl3_of_ne m c main_arg3 (by decide)).trans (Wl2_main_arg3 m c))
theorem Wl2_main_arg4 (c : Dev nD) : Wl2 m c (Proc.devRef .tc main_arg4) = m ((c : Thread nD τ).loc main_arg4) :=
  ((Wl2_arr m c 3).trans (((dat0 (Vr1 m) c).arrAt_in 3 rfl _).trans (A_eq0 (Vr1 m) c 3))).trans ((Wl1_of m c main_arg4 (by decide)).trans rfl)
theorem Wl4_main_arg4 (c : Dev nD) : Wl4 m c (Proc.devRef .tc main_arg4) = m ((c : Thread nD τ).loc main_arg4) :=
  (Wl4_of m c main_arg4 (by decide)).trans ((Wl3_of_ne m c main_arg4 (by decide)).trans (Wl2_main_arg4 m c))
theorem Wl2_main_arg5 (c : Dev nD) : Wl2 m c (Proc.devRef .tc main_arg5) = m ((c : Thread nD τ).loc main_arg5) :=
  (Wl2_of_ne m c main_arg5 (by decide)).trans ((Wl1_of m c main_arg5 (by decide)).trans rfl)
theorem Wl4_main_arg5 (c : Dev nD) : Wl4 m c (Proc.devRef .tc main_arg5) = m ((c : Thread nD τ).loc main_arg5) :=
  (Wl4_of m c main_arg5 (by decide)).trans ((Wl3_of_ne m c main_arg5 (by decide)).trans (Wl2_main_arg5 m c))

/-- Region 1 is entered with the gate row at what region 0's write-backs left. -/
theorem Wl2_main_v2 (c : Dev nD) : Wl2 m c (Proc.devRef .tc main_v2) = (dat0 (Vr1 m) c).arrAt 5 cfg0.N :=
  Wl2_arr m c 5
/-- The first result: what region 1's write-backs leave. -/
theorem Wl4_main_v3 (c : Dev nD) : Wl4 m c (Proc.devRef .tc main_v3) = (dat1 (Vr2 m) c).arrAt 3 cfg1.N :=
  (Wl4_of m c main_v3 (by decide)).trans (Wl3_arr m c 3)
/-- The gate row is not touched by region 1. -/
theorem Wl3_main_v2 (c : Dev nD) : Wl3 m c (Proc.devRef .tc main_v2) = (dat0 (Vr1 m) c).arrAt 5 cfg0.N :=
  ((Wl3_arr m c 2).trans (((dat1 (Vr2 m) c).arrAt_in 2 rfl _).trans (A_eq1 (Vr2 m) c 2))).trans (Wl2_main_v2 m c)

end Cert.Kernel.Fr

end
-- ==== Proof.K.Frame.lean ====
/-
  What the claims read off the run: every argument array ends as launched (the frame), and the two results end
  at the named contents — the first what region 1's write-backs leave, the second the last boundary's contents of
  the transposed gate row.
-/
import proofs.«105632_j88545045774670_1_alg».proof.Proof.K.Args

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame: every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
      (h c _ (mem_uc main_arg0 (by decide))).trans (Wl4_main_arg0 m c),
      (h c _ (mem_uc main_arg1 (by decide))).trans (Wl4_main_arg1 m c),
      (h c _ (mem_uc main_arg2 (by decide))).trans (Wl4_main_arg2 m c),
      (h c _ (mem_uc main_arg3 (by decide))).trans (Wl4_main_arg3 m c),
      (h c _ (mem_uc main_arg4 (by decide))).trans (Wl4_main_arg4 m c),
      (h c _ (mem_uc main_arg5 (by decide))).trans (Wl4_main_arg5 m c)⟩) (run_all m ρ)

/-- The same run with the two results named. -/
theorem run_vals : θ_run defs (onTc (τ := τ) (main (F := F))) ⟨m, fun _ => 0, ρ⟩ (fun r => ∀ c : Dev nD,
      r.2.mem ((c.tc : Thread nD τ).loc main_v3) = (dat1 (Vr2 m) c).arrAt 3 cfg1.N
      ∧ r.2.mem ((c.tc : Thread nD τ).loc main_v4) = Wl4 m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
      (h c _ (mem_uc main_v3 (by decide))).trans (Wl4_main_v3 m c),
      h c _ (mem_uc main_v4 (by decide)),
      (h c _ (mem_uc main_arg0 (by decide))).trans (Wl4_main_arg0 m c),
      (h c _ (mem_uc main_arg1 (by decide))).trans (Wl4_main_arg1 m c),
      (h c _ (mem_uc main_arg2 (by decide))).trans (Wl4_main_arg2 m c),
      (h c _ (mem_uc main_arg3 (by decide))).trans (Wl4_main_arg3 m c),
      (h c _ (mem_uc main_arg4 (by decide))).trans (Wl4_main_arg4 m c),
      (h c _ (mem_uc main_arg5 (by decide))).trans (Wl4_main_arg5 m c)⟩) (run_all m ρ)

end Cert.Kernel.Fr

end
-- ==== Proof.KI.Frame0.lean ====
/-
  Region 0 of the kernel program (the gate row), the part that does not depend on the float instance.

  The pipeline of region 0 walks 8 grid points.  At point t it stages rows 1024·t … 1024·t + 1023 of the feature
  matrix (window 0), the two weight matrices and the two bias cells whole (windows 1–4, whose block index never
  moves), and an output block of 1024 entries of the gate row (window 5).  The body reads the five input buffers
  whole, reads its output buffer once without using the value, and overwrites the output buffer whole with one
  pure function of the five inputs.

  Stated here, for the buffer contents `V` the region is entered with:
  * `iblk0`      — the block of window w at point t, read off the array as found;
  * `before0_W`  — every input buffer holds its block at every point, fetched there or not (an unfetched window's
                    block index has not moved, so the previous block is this block);
  * `out0_5`     — what the body leaves in the output buffer: its single whole-buffer store, as a function of the inputs;
  * `sound_kernel0` — the body's triple: inputs kept, output buffer at `out0_5` of the inputs, whatever it held before;
  * `dat0`, `body_obligation0` — the proof data of the pipeline and the obligation of its body at every point.
-/
import proofs.«105632_j88545045774670_1_alg».proof.Proof.Gen.KernelIdeal.Launch
import proofs.«105632_j88545045774670_1_alg».proof.Proof.Gen.KernelIdeal.Skeleton
import proofs.«105632_j88545045774670_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 0 is entered: everything below is stated at this parameter
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not, for any proof data whose
    array is `V`'s (`hA`) and whose body leaves the block in place (`hafter`): where the window is not fetched its block
    index has not moved, so the block staged earlier is the block of this point. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not, for any proof data whose
    array is `V`'s (`hA`) and whose body leaves the block in place (`hafter`): where the window is not fetched its block
    index has not moved, so the block staged earlier is the block of this point. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not, for any proof data whose
    array is `V`'s (`hA`) and whose body leaves the block in place (`hafter`): where the window is not fetched its block
    index has not moved, so the block staged earlier is the block of this point. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not, for any proof data whose
    array is `V`'s (`hA`) and whose body leaves the block in place (`hafter`): where the window is not fetched its block
    index has not moved, so the block staged earlier is the block of this point. The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or not, for any proof data whose
    array is `V`'s (`hA`) and whose body leaves the block in place (`hafter`): where the window is not fetched its block
    index has not moved, so the block staged earlier is the block of this point. The window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_0 : Rect S1024x256 := Rect.unit (s := S1024x256) ![0, 0] S1024x256.size inb_S1024x256_S1024x256_0_0
abbrev r0_1 : Rect S256x64 := Rect.unit (s := S256x64) ![0, 0] S256x64.size inb_S256x64_S256x64_0_0
abbrev r0_2 : Rect S1x64 := Rect.unit (s := S1x64) ![0, 0] S1x64.size inb_S1x64_S1x64_0_0
abbrev r0_3 : Rect S64x1 := Rect.unit (s := S64x1) ![0, 0] S64x1.size inb_S64x1_S64x1_0_0
abbrev r0_4 : Rect S1x1 := Rect.unit (s := S1x1) ![0, 0] S1x1.size inb_S1x1_S1x1_0_0
abbrev r0_5 : Rect S1x1024 := Rect.unit (s := S1x1024) ![0, 0] S1x1024.size inb_S1x1024_S1x1024_0_0

/-! ## What the body leaves in the output window's buffer -/

/-- Window 5's buffer after the body, from the input windows' blocks: its one store, of the gate values of the
    1024 staged rows, laid over the whole buffer. -/
def out0_5 (x0 : Vec F S1024x256 .f32) (x1 : Vec F S256x64 .f32) (x2 : Vec F S1x64 .f32) (x3 : Vec F S64x1 .f32) (x4 : Vec F S1x1 .f32) : Vec F S1x1024 .f32 :=
  View.canon [⟨r0_5, k0_pay1 (View.ld x0 r0_0) (View.ld x1 r0_1) (View.ld x2 r0_2) (View.ld x3 r0_3) (View.ld x4 r0_4)⟩]

/-- The one store is of the whole buffer, so it covers it. -/
theorem cover0_5 (p0 : Vec F S1x1024 .f32) (y : S1x1024.Idx) :
    ∃ pc ∈ ([⟨r0_5, p0⟩] : List (View.Piece (Elt F) S1x1024 .f32)), y ∈ pc.1.set :=
  View.cover_of_tiled [⟨r0_5, p0⟩] S1x1024.size (by rfl) y

/-! ## The body's triple -/

set_option maxHeartbeats 1000000 in
/-- The body on whole staging memrefs, the inputs' at read contents `xW` and the output's at anything, runs to the
    continuation holding the inputs' as they were and the output's at `out0_5` of the inputs': the five loads read
    the inputs whole, the load of the output buffer reads a value nothing uses, and the store overwrites every cell. -/
theorem sound_kernel0 (c : Dev nD) (E : Set ℕ) (i : grid0.Coords)
    (arg1 : Memref sig .tc .vmem S1024x256 .f32) (harg1 : arg1.IsWhole) (arg2 : Memref sig .tc .vmem S256x64 .f32) (harg2 : arg2.IsWhole)
    (arg3 : Memref sig .tc .vmem S1x64 .f32) (harg3 : arg3.IsWhole) (arg4 : Memref sig .tc .vmem S64x1 .f32) (harg4 : arg4.IsWhole)
    (arg5 : Memref sig .tc .vmem S1x1 .f32) (harg5 : arg5.IsWhole) (arg6 : Memref sig .tc .vmem S1x1024 .f32) (harg6 : arg6.IsWhole)
    (x0 : Vec F S1024x256 .f32) (x1 : Vec F S256x64 .f32) (x2 : Vec F S1x64 .f32) (x3 : Vec F S64x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__e_kernel i arg1 harg1 arg2 harg2 arg3 harg3 arg4 harg4 arg5 harg5 arg6 harg6) K := by
  simp only [cc0__e_kernel_eq_skeleton]; unfold cc0__e_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them (`V`); after the body at point `t`
    each input's buffer at its block and the output's at `out0_5` of the input blocks; the invariant that of a body
    touching nothing else (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Val0.lean ====
/-
  Region 0 of the kernel program, read index by index: what it leaves in the gate row, and what its input blocks are.

  The output window's blocks are the eight consecutive stretches of 1024 entries of the [1, 8192] gate row, one per
  grid point, each written back once; no two of them meet.  So entry q of the row after the region is entry q mod 1024
  of what point q / 1024 stored: the body's pure function of the five input blocks at that point.  The first input
  block at point t is rows 1024·t … 1024·t + 1023 of the feature matrix; the other four input blocks are their whole
  arrays at every point.
-/
import proofs.«105632_j88545045774670_1_alg».proof.Proof.KI.Frame0
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem hz0 : (![0, 0] : Fin 2 → Nat) = fun _ => 0 := funext fun a => by fin_cases a <;> rfl

/-! ## The block indices, decided over the eight points -/

/-- At point `t`: the feature rows' block index is `(t, 0)`, the output's `(0, t)`, every other window's `(0, 0)`. -/
theorem idx0_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- Distinct points write back distinct blocks of the gate row. -/
theorem idx0_5_inj : ∀ t t' : Fin cfg0.N, win0_5.index t = win0_5.index t' → t = t' :=
  (by decide +kernel : ∀ t t' : Fin grid0.N, win0_5.index t = win0_5.index t' → t = t')

/-- So two points' output blocks share no index of the row. -/
theorem disjoint0_5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx0_5_inj t t' h)

/-! ## The input blocks -/

/-- The feature block at point `t` is rows `1024·t … 1024·t + 1023` of the feature matrix. -/
theorem iblk0_0_apply (c : Dev nD) (t : Fin cfg0.N) (r : Fin 1024) (d : Fin 256) (h : 1024 * t.val + r.val < 8192) :
    (iblk0 V c 0 t : Vec F S1024x256 .f32) (ix2 r d)
      = (V c main_arg1 : S8192x256.Idx → Elt F .f32) (ix2 ⟨1024 * t.val + r.val, h⟩ d) := by
  obtain ⟨e0, e1, -⟩ := idx0_facts t
  unfold iblk0
  rw [View.read_apply]
  show V c main_arg1 _ = V c main_arg1 _
  refine congrArg (V c main_arg1) ?_
  funext a
  apply Fin.ext
  match a with
  | ⟨0, _⟩ => show win0_0.index t (0 : Fin 2) * 1024 + 1 * r.val = 1024 * t.val + r.val; rw [e0]; omega
  | ⟨1, _⟩ => show win0_0.index t (1 : Fin 2) * 256 + 1 * d.val = d.val; rw [e1]; omega

/-- The first weight matrix is staged whole at every point. -/
theorem iblk0_1_eq (c : Dev nD) (t : Fin cfg0.N) :
    (iblk0 V c 1 t : Vec F S256x64 .f32) = (V c main_arg2 : S256x64.Idx → Elt F .f32) := by
  obtain ⟨-, -, e0, e1, -⟩ := idx0_facts t
  funext x
  unfold iblk0
  rw [View.read_apply]
  show V c main_arg2 _ = V c main_arg2 x
  refine congrArg (V c main_arg2) ?_
  funext a
  apply Fin.ext
  match a with
  | ⟨0, _⟩ => show win0_1.index t (0 : Fin 2) * 256 + 1 * (x 0).val = (x 0).val; rw [e0]; omega
  | ⟨1, _⟩ => show win0_1.index t (1 : Fin 2) * 64 + 1 * (x 1).val = (x 1).val; rw [e1]; omega

/-- The first bias row is staged whole at every point. -/
theorem iblk0_2_eq (c : Dev nD) (t : Fin cfg0.N) :
    (iblk0 V c 2 t : Vec F S1x64 .f32) = (V c main_v0 : S1x64.Idx → Elt F .f32) := by
  obtain ⟨-, -, -, -, e0, e1, -⟩ := idx0_facts t
  funext x
  unfold iblk0
  rw [View.read_apply]
  show V c main_v0 _ = V c main_v0 x
  refine congrArg (V c main_v0) ?_
  funext a
  apply Fin.ext
  match a with
  | ⟨0, _⟩ => show win0_2.index t (0 : Fin 2) * 1 + 1 * (x 0).val = (x 0).val; rw [e0]; omega
  | ⟨1, _⟩ => show win0_2.index t (1 : Fin 2) * 64 + 1 * (x 1).val = (x 1).val; rw [e1]; omega

/-- The second weight column is staged whole at every point. -/
theorem iblk0_3_eq (c : Dev nD) (t : Fin cfg0.N) :
    (iblk0 V c 3 t : Vec F S64x1 .f32) = (V c main_arg4 : S64x1.Idx → Elt F .f32) := by
  obtain ⟨-, -, -, -, -, -, e0, e1, -⟩ := idx0_facts t
  funext x
  unfold iblk0
  rw [View.read_apply]
  show V c main_arg4 _ = V c main_arg4 x
  refine congrArg (V c main_arg4) ?_
  funext a
  apply Fin.ext
  match a with
  | ⟨0, _⟩ => show win0_3.index t (0 : Fin 2) * 64 + 1 * (x 0).val = (x 0).val; rw [e0]; omega
  | ⟨1, _⟩ => show win0_3.index t (1 : Fin 2) * 1 + 1 * (x 1).val = (x 1).val; rw [e1]; omega

/-- The second bias cell is staged whole at every point. -/
theorem iblk0_4_eq (c : Dev nD) (t : Fin cfg0.N) :
    (iblk0 V c 4 t : Vec F S1x1 .f32) = (V c main_v1 : S1x1.Idx → Elt F .f32) := by
  obtain ⟨-, -, -, -, -, -, -, -, e0, e1, -⟩ := idx0_facts t
  funext x
  unfold iblk0
  rw [View.read_apply]
  show V c main_v1 _ = V c main_v1 x
  refine congrArg (V c main_v1) ?_
  funext a
  apply Fin.ext
  match a with
  | ⟨0, _⟩ => show win0_4.index t (0 : Fin 2) * 1 + 1 * (x 0).val = (x 0).val; rw [e0]; omega
  | ⟨1, _⟩ => show win0_4.index t (1 : Fin 2) * 1 + 1 * (x 1).val = (x 1).val; rw [e1]; omega

/-! ## What a point writes back, and the row after the region -/

/-- What point `t` writes back to the gate row: the body's function of the five input blocks at `t`. -/
theorem flushed0_5 (c : Dev nD) (t : Fin cfg0.N) :
    (dat0 V c).flushed 5 t = k0_pay1 (iblk0 V c 0 t) (iblk0 V c 1 t) (iblk0 V c 2 t) (iblk0 V c 3 t) (iblk0 V c 4 t) := by
  show (cfg0.win 5).cut (grid0.coords t) ((dat0 V c).after 5 t) = _
  rw [after0_5]
  unfold out0_5
  rw [View.canon_unit_zero hz0]
  simp only [View.ld_unit_zero (S := S1024x256) hz0, View.ld_unit_zero (S := S256x64) hz0, View.ld_unit_zero (S := S1x64) hz0,
    View.ld_unit_zero (S := S64x1) hz0, View.ld_unit_zero (S := S1x1) hz0]
  rfl

/-- Under point `t`'s block the row ends at what `t` wrote back: no other point's block meets it. -/
theorem arr0_5_emb (c : Dev nD) (t : Fin cfg0.N) (y : S1x1024.Idx) :
    (dat0 V c).arrAt 5 cfg0.N (((cfg0.win 5).blk t).view.emb y)
      = k0_pay1 (iblk0 V c 0 t) (iblk0 V c 1 t) (iblk0 V c 2 t) (iblk0 V c 3 t) (iblk0 V c 4 t) y := by
  refine ((dat0 V c).arrAt_emb_eq_flushed 5 disjoint0_5 t (flush0_5 t) y).trans ?_
  show (dat0 V c).flushed 5 t y = _
  rw [flushed0_5]

/-- Entry `1024·t + l` of the gate row after the region is entry `l` of point `t`'s result. -/
theorem arr0_5_apply (c : Dev nD) (t : Fin cfg0.N) (l : Fin 1024) (h : 1024 * t.val + l.val < 8192) :
    ((dat0 V c).arrAt 5 cfg0.N : S1x8192.Idx → Elt F .f32) (ix2 0 ⟨1024 * t.val + l.val, h⟩)
      = k0_pay1 (iblk0 V c 0 t) (iblk0 V c 1 t) (iblk0 V c 2 t) (iblk0 V c 3 t) (iblk0 V c 4 t) (ix2 0 l) := by
  obtain ⟨-, -, -, -, -, -, -, -, -, -, e0, e1⟩ := idx0_facts t
  have e : ((cfg0.win 5).blk t).view.emb (ix2 (0 : Fin 1) l) = (ix2 (0 : Fin 1) ⟨1024 * t.val + l.val, h⟩ : S1x8192.Idx) := by
    funext a
    apply Fin.ext
    match a with
    | ⟨0, _⟩ => show win0_5.index t (0 : Fin 2) * 1 + 1 * 0 = 0; rw [e0]
    | ⟨1, _⟩ => show win0_5.index t (1 : Fin 2) * 1024 + 1 * l.val = 1024 * t.val + l.val; rw [e1]; omega
  rw [← e]
  exact arr0_5_emb V c t (ix2 0 l)

/-- The point that writes entry `q` of the gate row, -/
def pt0 (q : Fin 8192) : Fin cfg0.N := ⟨q.val / 1024, by have := q.isLt; rw [show cfg0.N = 8 from N_0]; omega⟩
/-- and the entry's place in that point's block. -/
def ln0 (q : Fin 8192) : Fin 1024 := ⟨q.val % 1024, Nat.mod_lt _ (by decide)⟩

/-- THE GATE ROW after region 0, entry by entry: the body's function of the input blocks at the entry's point,
    at the entry's place in the block. -/
theorem arr0_5_at (c : Dev nD) (q : Fin 8192) :
    ((dat0 V c).arrAt 5 cfg0.N : S1x8192.Idx → Elt F .f32) (ix2 0 q)
      = k0_pay1 (iblk0 V c 0 (pt0 q)) (iblk0 V c 1 (pt0 q)) (iblk0 V c 2 (pt0 q)) (iblk0 V c 3 (pt0 q)) (iblk0 V c 4 (pt0 q)) (ix2 0 (ln0 q)) := by
  have h : 1024 * (pt0 q).val + (ln0 q).val < 8192 := by
    show 1024 * (q.val / 1024) + q.val % 1024 < 8192
    have := q.isLt; omega
  have hq : q = ⟨1024 * (pt0 q).val + (ln0 q).val, h⟩ := Fin.ext (by
    show q.val = 1024 * (q.val / 1024) + q.val % 1024
    omega)
  exact (congrArg (fun z : Fin 8192 => ((dat0 V c).arrAt 5 cfg0.N : S1x8192.Idx → Elt F .f32) (ix2 0 z)) hq).trans
    (arr0_5_apply V c (pt0 q) (ln0 q) h)

end Cert.KernelIdeal.Fr

end
-- ==== Proof.KI.Frame1Runs.lean ====
/-
  Region 1 (the gated aggregation over a grid of 8 × 8 blocks), what its three control cases share.
  The body zeroes a VMEM accumulator at the first column block of a row of blocks (j = 0), adds one block
  product to it at every column block, and copies it to the output block at the last (j = 7). Point t of
  the grid is the pair (i, j) with t = 8 i + j, so the two conditions are t % 8 = 0 and t % 8 = 7; the
  output window is idle, and not written back, wherever the second fails. Everything here is stated at a
  parameter V: the buffers' contents when the region is entered.
-/
import proofs.«105632_j88545045774670_1_alg».proof.Proof.Gen.KernelIdeal.Launch
import proofs.«105632_j88545045774670_1_alg».proof.Proof.Gen.KernelIdeal.Skeleton
import proofs.«105632_j88545045774670_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- The first conditional's condition (the column block is the first), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- The second conditional's condition (the column block is the last). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S1024x256 .f32 := (Memref.whole cc1_stg3_0 : Memref sig .tc .vmem S1024x256 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8192 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from one point to the next. -/
abbrev scM1_0 : Memref sig .tc .vmem S1024x256 .f32 := Memref.whole cc1_scratch0
abbrev VS1_0 : View sig .tc .vmem S1024x256 .f32 := scM1_0.view

/-- The scoped buffers of the core that are neither a staging buffer of this region nor its accumulator
    (the first region's staging buffers), each whole at some contents. -/
def restS (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The class invariant with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Fr

end
-- ==== Proof.KI.Frame1RunA.lean ====
/-
  Region 1's body in its case A: the first column block of a row of blocks (j = 0, and not the last): the accumulator is zeroed, then the block product is added; the output window is left untouched.
  The run is the symbolic execution of the printed body on whole staging memrefs; what each buffer ends with
  is found by that execution, as a list of the pieces stored (last first).
-/
import proofs.«105632_j88545045774670_1_alg».proof.Proof.KI.Frame1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x1024 .f32) (x1 : Vec F S8192x256 .f32) (x2 : Vec F S1x8192 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨[], ?_, fun xi3 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.Frame1RunB.lean ====
/-
  Region 1's body in its case B: a column block that is neither the first nor the last (0 < j < 7): the block product is added to the accumulator the point before left; the output window is left untouched.
  The run is the symbolic execution of the printed body on whole staging memrefs; what each buffer ends with
  is found by that execution, as a list of the pieces stored (last first).
-/
import proofs.«105632_j88545045774670_1_alg».proof.Proof.KI.Frame1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x1024 .f32) (x1 : Vec F S8192x256 .f32) (x2 : Vec F S1x8192 .f32) (xs0 : Vec F S1024x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨[], ?_, fun xi3 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.Frame1RunC.lean ====
/-
  Region 1's body in its case C: the last column block (j = 7): the block product is added to the accumulator the point before left, and the accumulator is copied whole into the output block.
  The run is the symbolic execution of the printed body on whole staging memrefs; what each buffer ends with
  is found by that execution, as a list of the pieces stored (last first).
-/
import proofs.«105632_j88545045774670_1_alg».proof.Proof.KI.Frame1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x1024 .f32) (x1 : Vec F S8192x256 .f32) (x2 : Vec F S1x8192 .f32) (xs0 : Vec F S1024x256 .f32) :
    Σ' (L3 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.Frame1.lean ====
/-
  Region 1, the rest of its frame half: what each control case leaves in the output block and in the
  accumulator; the recursion over the grid's points (after point t the accumulator holds what the case at t
  computed from the point's blocks and, except at a first column block, from what point t − 1 left); the
  invariant that carries the accumulator from point to point; the proof data; and the body obligation, a case
  split on t % 8.
-/
import proofs.«105632_j88545045774670_1_alg».proof.Proof.KI.Frame1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output window's staging buffer: its pieces read back (none: the window is idle at the case's points, neither written back nor read at the next point, so nothing consults this). -/
def out1_A_3 (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x1024 .f32) (x1 : Vec F S8192x256 .f32) (x2 : Vec F S1x8192 .f32) : Vec F S1024x256 .f32 :=
  VO1_3.read (Elt F) (VO1_3.writes (Elt F) VO1_3.junk (kernelRun1_A c i arg2 harg2 arg3 harg3 arg4 harg4 arg5 harg5 arg6 harg6 hc0 hc1 x0 x1 x2).1)

/-- Case A's stores into the accumulator cover it. -/
theorem scover1_A_0 (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x1024 .f32) (x1 : Vec F S8192x256 .f32) (x2 : Vec F S1x8192 .f32) (y : S1024x256.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x256.size (by sl_kernel_rfl) y

/-- What case A leaves in the accumulator: its pieces read back. -/
def sout1_A_0 (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x1024 .f32) (x1 : Vec F S8192x256 .f32) (x2 : Vec F S1x8192 .f32) : Vec F S1024x256 .f32 :=
  VS1_0.read (Elt F) (VS1_0.writes (Elt F) VS1_0.junk (kernelRun1_A c i arg2 harg2 arg3 harg3 arg4 harg4 arg5 harg5 arg6 harg6 hc0 hc1 x0 x1 x2).2.1)

/-- What case B leaves in the output window's staging buffer: its pieces read back (none: the window is idle at the case's points, neither written back nor read at the next point, so nothing consults this). -/
def out1_B_3 (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x1024 .f32) (x1 : Vec F S8192x256 .f32) (x2 : Vec F S1x8192 .f32) (xs0 : Vec F S1024x256 .f32) : Vec F S1024x256 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's stores into the accumulator cover it. -/
theorem scover1_B_0 (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x1024 .f32) (x1 : Vec F S8192x256 .f32) (x2 : Vec F S1x8192 .f32) (xs0 : Vec F S1024x256 .f32) (y : S1024x256.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x256.size (by sl_kernel_rfl) y

/-- What case B leaves in the accumulator: its pieces read back. -/
def sout1_B_0 (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x1024 .f32) (x1 : Vec F S8192x256 .f32) (x2 : Vec F S1x8192 .f32) (xs0 : Vec F S1024x256 .f32) : Vec F S1024x256 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- What case C leaves in the output window's staging buffer: its pieces read back. -/
def out1_C_3 (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x1024 .f32) (x1 : Vec F S8192x256 .f32) (x2 : Vec F S1x8192 .f32) (xs0 : Vec F S1024x256 .f32) : Vec F S1024x256 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's one store into the output block covers it. -/
theorem cover1_C_3 (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x1024 .f32) (x1 : Vec F S8192x256 .f32) (x2 : Vec F S1x8192 .f32) (xs0 : Vec F S1024x256 .f32) (y : S1024x256.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x256.size (by sl_kernel_rfl) y

/-- Case C's stores into the accumulator cover it. -/
theorem scover1_C_0 (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x1024 .f32) (x1 : Vec F S8192x256 .f32) (x2 : Vec F S1x8192 .f32) (xs0 : Vec F S1024x256 .f32) (y : S1024x256.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x256.size (by sl_kernel_rfl) y

/-- What case C leaves in the accumulator: its pieces read back. -/
def sout1_C_0 (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x1024 .f32) (x1 : Vec F S8192x256 .f32) (x2 : Vec F S1x8192 .f32) (xs0 : Vec F S1024x256 .f32) : Vec F S1024x256 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output block and the accumulator hold after each point -/

/-- After the body at position n: (the output window's staging buffer, the accumulator). -/
def outsAt1 (c : Dev nD) : (n : ℕ) → n < cfg1.N → Vec F S1024x256 .f32 × Vec F S1024x256 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point every scoped buffer that is no staging
    buffer of this region is at some contents; afterwards the accumulator is at what the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨Hr1, Hr2, Hr3, Hr4, Hr5, Hr6, Hr7, Hr8, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hr1 Hr2 Hr3 Hr4 Hr5 Hr6 Hr7 Hr8 HS0 Hg]
        · isplitl [Hr1 Hr2 Hr3 Hr4 Hr5 Hr6 Hr7 Hr8 HS0]
          · isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨Hr1, Hr2, Hr3, Hr4, Hr5, Hr6, Hr7, Hr8, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Hr1 Hr2 Hr3 Hr4 Hr5 Hr6 Hr7 Hr8 HS0 Hg]
        · isplitl [Hr1 Hr2 Hr3 Hr4 Hr5 Hr6 Hr7 Hr8 HS0]
          · isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨Hr1, Hr2, Hr3, Hr4, Hr5, Hr6, Hr7, Hr8, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [Hr1 Hr2 Hr3 Hr4 Hr5 Hr6 Hr7 Hr8 HS0 Hg]
        · isplitl [Hr1 Hr2 Hr3 Hr4 Hr5 Hr6 Hr7 Hr8 HS0]
          · isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨Hr1, Hr2, Hr3, Hr4, Hr5, Hr6, Hr7, Hr8, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hr1 Hr2 Hr3 Hr4 Hr5 Hr6 Hr7 Hr8 HS0 Hg]
        · isplitl [Hr1 Hr2 Hr3 Hr4 Hr5 Hr6 Hr7 Hr8 HS0]
          · isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr1, Hr2, Hr3, Hr4, Hr5, Hr6, Hr7, Hr8, HS0⟩, Hg⟩
  isplitl [Hr1 Hr2 Hr3 Hr4 Hr5 Hr6 Hr7 Hr8 HS0]
  · isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Fr

end
-- ==== Proof.KI.Run.lean ====
/-
  The whole run of @main: two host reshapes, the gate region, the aggregation region, the host transpose.
  Between two items core c holds every unscoped buffer at a named valuation: the launch memory; after the
  reshapes; after region 0 (its output array at what its write-backs leave, everything else as entered);
  after region 1 likewise; after the transpose. Every weakly fair execution terminates, nothing faulting, with
  every unscoped buffer at the last valuation — the frame and the results are read off that.
-/
import proofs.«105632_j88545045774670_1_alg».proof.Proof.KI.Frame0
import proofs.«105632_j88545045774670_1_alg».proof.Proof.KI.Frame1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev Wl0 : Dev nD → Valuation τ sig (Elt F) := fun c b => m ((c : Dev nD), b)
/-- After the two reshapes (region 0's entry). -/
abbrev Wl1 : Dev nD → Valuation τ sig (Elt F) := fun c => StableHlo.after hostOps0 (Wl0 m c)
abbrev Vr1 : (c : Dev nD) → (b : Ref sig .tc) → Buf (Elt F) ((c : Thread nD τ).loc b) := fun c b => Wl1 m c b
/-- At region 0's exit (region 1's entry): its arrays at what the pipeline leaves, every other buffer as entered. -/
def Wl2 (c : Dev nD) : Valuation τ sig (Elt F) :=
  Pipeline.withArrays spec0 c (Wl1 m c) fun w => (dat0 (Vr1 m) c).arrAt w cfg0.N
theorem Wl2_arr (c : Dev nD) (w : Fin cfg0.W) :
    Wl2 m c (Proc.devRef .tc (Pipeline.arrRef spec0 w)) = (dat0 (Vr1 m) c).arrAt w cfg0.N := by
  unfold Wl2; exact Pipeline.withArrays_arr spec0 launch0.win.arr_inj c _ _ w
theorem Wl2_of_ne (c : Dev nD) (b : Ref sig .tc) (hb : ∀ w, Pipeline.arrRef spec0 w ≠ b) :
    Wl2 m c (Proc.devRef .tc b) = Wl1 m c (Proc.devRef .tc b) := by
  unfold Wl2; exact Pipeline.withArrays_of_ne spec0 c _ _ b hb
abbrev Vr2 : (c : Dev nD) → (b : Ref sig .tc) → Buf (Elt F) ((c : Thread nD τ).loc b) := fun c b => Wl2 m c b
theorem hF0 (c : Dev nD) (w : Fin cfg0.W) : (dat0 (Vr1 m) c).arrAt w cfg0.N = Vr2 m c (Pipeline.arrRef spec0 w) :=
  (Wl2_arr m c w).symm
theorem hrest0 (c : Dev nD) : ∀ b, b ∉ Finset.univ.image (Pipeline.arrRef spec0) → Vr2 m c b = Vr1 m c b :=
  fun b hb => Wl2_of_ne m c b fun w e => hb (Finset.mem_image.mpr ⟨w, Finset.mem_univ _, e⟩)
/-- At region 1's exit. -/
def Wl3 (c : Dev nD) : Valuation τ sig (Elt F) :=
  Pipeline.withArrays spec1 c (Wl2 m c) fun w => (dat1 (Vr2 m) c).arrAt w cfg1.N
theorem Wl3_arr (c : Dev nD) (w : Fin cfg1.W) :
    Wl3 m c (Proc.devRef .tc (Pipeline.arrRef spec1 w)) = (dat1 (Vr2 m) c).arrAt w cfg1.N := by
  unfold Wl3; exact Pipeline.withArrays_arr spec1 launch1.win.arr_inj c _ _ w
theorem Wl3_of_ne (c : Dev nD) (b : Ref sig .tc) (hb : ∀ w, Pipeline.arrRef spec1 w ≠ b) :
    Wl3 m c (Proc.devRef .tc b) = Wl2 m c (Proc.devRef .tc b) := by
  unfold Wl3; exact Pipeline.withArrays_of_ne spec1 c _ _ b hb
abbrev Vr3 : (c : Dev nD) → (b : Ref sig .tc) → Buf (Elt F) ((c : Thread nD τ).loc b) := fun c b => Wl3 m c b
theorem hF1 (c : Dev nD) (w : Fin cfg1.W) : (dat1 (Vr2 m) c).arrAt w cfg1.N = Vr3 m c (Pipeline.arrRef spec1 w) :=
  (Wl3_arr m c w).symm
theorem hrest1 (c : Dev nD) : ∀ b, b ∉ Finset.univ.image (Pipeline.arrRef spec1) → Vr3 m c b = Vr2 m c b :=
  fun b hb => Wl3_of_ne m c b fun w e => hb (Finset.mem_image.mpr ⟨w, Finset.mem_univ _, e⟩)
/-- After the transpose: the end. -/
abbrev Wl4 : Dev nD → Valuation τ sig (Elt F) := fun c => StableHlo.after hostOps2 (Wl3 m c)

/-! ## The proof data family and the thread state -/

abbrev hadm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) hadm p) c
  | ⟨0, _⟩ => fun c => dat0 (Vr1 m) c
  | ⟨1, _⟩ => fun c => dat1 (Vr2 m) c
abbrev 𝒱r : Variants := Variants.none
abbrev Lr : GSem nD τ sig → Finset Unit := fun _ => ∅
abbrev lvr : GSem nD τ sig → Unit → ℕ := fun _ _ => 0
/-- What rides beside the buffers through every item: the generator register at some state, and nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem hostOps0_fr : (hostOps0 : List (HloOp τ sig (Elt F))).Forall fun op => op.fresh = ∅ := by
  simp only [List.Forall]; repeat' constructor
theorem hostOps2_fr : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (Wl4 m c) ∗ ∃ r, prngReg c r)

/-! ## The regions as segments -/

set_option backward.isDefEq.respectTransparency.types false in
/-- Region 0 over the thread state "every unscoped buffer at the boundary's contents, the generator register at some
    state, nothing owed": its arrays are split out of the unscoped buffers on entry and put back at what the
    write-backs leave on exit; the kernel has no semaphore of its own. -/
def reg0 : Pipeline.RegionSeg (pcfgs (F := F)) hadm (pdats m) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ Lr lvr 0 fun _ _ => rfl
  pre c := iprop(StableHlo.held (c : Thread nD τ) (Pipeline.ucRefs τ sig) (Wl1 m c) ∗ Rr c)
  post c := iprop(StableHlo.held (c : Thread nD τ) (Pipeline.ucRefs τ sig) (Wl2 m c) ∗ Rr c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) hadm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays are split out of the unscoped buffers on entry and put back at what the
    write-backs leave on exit; the kernel has no semaphore of its own. -/
def reg1 : Pipeline.RegionSeg (pcfgs (F := F)) hadm (pdats m) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (Vr2 m) c).loose
  hwaits := Pipeline.hwaits_of_owed_zero _ _ _ _ Lr lvr 1 fun _ _ => rfl
  pre c := iprop(StableHlo.held (c : Thread nD τ) (Pipeline.ucRefs τ sig) (Wl2 m c) ∗ Rr c)
  post c := iprop(StableHlo.held (c : Thread nD τ) (Pipeline.ucRefs τ sig) (Wl3 m c) ∗ Rr c)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit := Pipeline.arrays_of_unscopedBufs (p := 1) (pcfgs (F := F)) hadm (pdats m) launch1.win launch1.arr_whole c
      ((pdats m 1 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Vr2 m) c)
    unfold Pipeline.ΦA
    iintro ⟨Hp, -, Hr⟩
    isplitl [Hr]; · iexact Hr
    iexact Hp
  hout c := by
    rw [Pipeline.ownSems0_none]
    refine (hout1 (Vr2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m) ((pdats m 1 c).share_full fun _ => rfl)
      (Vr2 m c) (Vr3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev hsegs : List (Pipeline.Seg (pcfgs (F := F)) hadm (pdats m) () defs₀ 𝒱r Lr lvr) :=
  [ .host (hseg hostOps0 hostOps0_sub hostOps0_fr (Wl0 m)),
    .region (reg0 m),
    .region (reg1 m),
    .host (hseg hostOps2 hostOps2_sub hostOps2_fr (Wl3 m)) ]
theorem main_run (c : Dev nD) : main (F := F) c = Pipeline.Seg.run (hsegs m) := (main_chain c).trans (by chain_rfl)

set_option backward.isDefEq.respectTransparency.types false in
/-- From any memory with zero counters every weakly fair execution of @main terminates, nothing faulting, and every
    final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wl4 m c b) :=
  Pipeline.θ_run_regions_kit (pcfgs (F := F)) hadm (pdats m) () cellOf_inj emb₁ defs₀ 𝒱r Lr lvr m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl0 m c) ∗ Rr c)) (Tₙ := Tlast m)
    (hch := ⟨fun _ => .rfl, fun _ => .rfl, fun _ => .rfl, fun _ => .rfl, fun c => by
      show iprop(StableHlo.held (c : Thread nD τ) (Pipeline.ucRefs τ sig) (Wl4 m c) ∗ Rr c) ⊢ _
      iintro ⟨Hh, Hp, HO⟩
      isplitl [Hh Hp]
      · isplitl [Hh]; · iexact Hh
        iexact Hp
      iexact HO⟩)
    (hinit := by
      refine Pipeline.initEach Lr lvr fun c => ?_
      rw [show unscopedBufs c (fun b => m ((c : Thread nD τ).loc b)) = StableHlo.held (c : Thread nD τ) (Pipeline.ucRefs τ sig) (Wl0 m c)
        from Pipeline.unscopedBufs_held c (Wl0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wl4 m c b)
    (hfin := fun c s' => by
      iintro ⟨⟨Hh, -⟩, HSI⟩
      unfold StableHlo.held
      imodintro
      iapply (pointsTo_read_all (Pipeline.ucRefs τ sig) (fun b => (((c : Thread nD τ)).1, b)) (Wl4 m c) s')
      isplitl [Hh] <;> iassumption)
    (hQ := fun s h c => h c)

end Cert.KernelIdeal.Fr

end
-- ==== Proof.KI.Bound.lean ====
/-
  The host side of the kernel program, read at an index.

  Before the gate region the host reshapes the first bias vector [64] to a row [1, 64] and the second bias [1] to a
  cell [1, 1]: entry (0, k) of the row is entry k of the vector, and the cell is the vector's one entry. Neither
  reshape writes the feature matrix or the two weight matrices, which the gate region therefore finds as launched.
  After the aggregation region the host transposes the gate row [1, 8192] to a column [8192, 1]: entry (q, 0) of the
  column is entry (0, q) of the row as the aggregation region left it.
-/
import proofs.«105632_j88545045774670_1_alg».proof.Proof.KI.Run
import proofs.«105632_j88545045774670_1_alg».proof.Proof.Gen.KernelIdeal.Regions
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.StableHlo Idealize.SL.Sem
open Idealize.ShloMosaic.ValueIdx

variable {F : FTy → Type} [FloatOps F]
variable (m : (ℓ : Loc nD τ sig) → Buf (Elt F) ℓ)

/-! ## The two reshapes before the gate region -/

/-- The bias row the gate region finds: the first bias vector, reshaped. -/
theorem Vr1_main_v0 (c : Dev nD) :
    (Vr1 m c main_v0 : S1x64.Idx → Elt F .f32)
      = shapeCast S1x64 (m ((c : Thread nD τ).loc main_arg3) : S64.Idx → Elt F .f32) shapeCasts_S64_S1x64 := by
  show StableHlo.after hostOps0 (fun b => m ((c : Dev nD), b)) (Proc.devRef .tc main_v0) = _
  after_results
  rfl

/-- Entry `(0, k)` of the bias row is entry `k` of the bias vector. -/
theorem Vr1_main_v0_apply (c : Dev nD) (k : Fin 64) :
    (Vr1 m c main_v0 : S1x64.Idx → Elt F .f32) (ix2 (0 : Fin 1) k)
      = (m ((c : Thread nD τ).loc main_arg3) : S64.Idx → Elt F .f32) (ix1 k) := by
  rw [Vr1_main_v0]
  exact shapeCast_a_1a_apply _ _ (0 : Fin 1) k

/-- The bias cell the gate region finds: the second bias, reshaped. -/
theorem Vr1_main_v1 (c : Dev nD) :
    (Vr1 m c main_v1 : S1x1.Idx → Elt F .f32)
      = shapeCast S1x1 (m ((c : Thread nD τ).loc main_arg5) : S1.Idx → Elt F .f32) shapeCasts_S1_S1x1 := by
  show StableHlo.after hostOps0 (fun b => m ((c : Dev nD), b)) (Proc.devRef .tc main_v1) = _
  after_results
  rfl

/-- The bias cell is the second bias's one entry. -/
theorem Vr1_main_v1_apply (c : Dev nD) :
    (Vr1 m c main_v1 : S1x1.Idx → Elt F .f32) (ix2 (0 : Fin 1) (0 : Fin 1))
      = (m ((c : Thread nD τ).loc main_arg5) : S1.Idx → Elt F .f32) (ix1 (0 : Fin 1)) := by
  rw [Vr1_main_v1]
  exact shapeCast_a_1a_apply _ _ (0 : Fin 1) (0 : Fin 1)

/-- The gate region finds the feature matrix as launched: no reshape writes it. -/
theorem Vr1_main_arg1 (c : Dev nD) : Vr1 m c main_arg1 = m ((c : Thread nD τ).loc main_arg1) :=
  (StableHlo.after_of_writes_sub hostOps0 _ hostOps0_writes (by decide : main_arg1 ∉ hostOps0_W)).trans rfl
/-- The gate region finds the first weight matrix as launched. -/
theorem Vr1_main_arg2 (c : Dev nD) : Vr1 m c main_arg2 = m ((c : Thread nD τ).loc main_arg2) :=
  (StableHlo.after_of_writes_sub hostOps0 _ hostOps0_writes (by decide : main_arg2 ∉ hostOps0_W)).trans rfl
/-- The gate region finds the second weight column as launched. -/
theorem Vr1_main_arg4 (c : Dev nD) : Vr1 m c main_arg4 = m ((c : Thread nD τ).loc main_arg4) :=
  (StableHlo.after_of_writes_sub hostOps0 _ hostOps0_writes (by decide : main_arg4 ∉ hostOps0_W)).trans rfl

/-! ## The transpose after the aggregation region -/

/-- The second result: the gate row as the aggregation region left it, transposed. -/
theorem Wl4_main_v4 (c : Dev nD) :
    (Wl4 m c (Proc.devRef .tc main_v4) : S8192x1.Idx → Elt F .f32)
      = transpose S8192x1 [1, 0] (Wl3 m c (Proc.devRef .tc main_v2) : S1x8192.Idx → Elt F .f32) transposes_S1x8192_S8192x1_1_0 := by
  show StableHlo.after hostOps2 (Wl3 m c) (Proc.devRef .tc main_v4) = _
  after_results

/-- Entry `(q, 0)` of the second result is entry `(0, q)` of the gate row. -/
theorem Wl4_main_v4_apply (c : Dev nD) (q : Fin 8192) :
    (Wl4 m c (Proc.devRef .tc main_v4) : S8192x1.Idx → Elt F .f32) (ix2 q (0 : Fin 1))
      = (Wl3 m c (Proc.devRef .tc main_v2) : S1x8192.Idx → Elt F .f32) (ix2 (0 : Fin 1) q) := by
  rw [Wl4_main_v4]
  exact transpose_ix2_apply _ _ q (0 : Fin 1)

end Cert.KernelIdeal.Fr

end
-- ==== Proof.LibSumBlocks.lean ====
/-
  Regrouping a finite sum into blocks.

  A sum over the positions `0 … a·b·c − 1` of a function of the position is the triple sum over a block number
  `t < a`, a row `r < b` inside the block and a lane `l < c` inside the row, of the function at the position
  `(b·t + r)·c + l` — the row-major position of `(t, r, l)`. It holds in every commutative additive monoid, the
  extended reals included: only associativity and commutativity of the addition are used. Also: a sum over the
  indices of a rank-1 array is the sum over its one coordinate.
-/
import Idealize.ShloMosaic.Lib.ValueIdx

open scoped BigOperators

namespace Cert.Lib.SumBlocks

open Idealize.ShloMosaic Idealize.ShloMosaic.ValueIdx

/-- A sum over the positions below `m·n` is the double sum over the quotient `i < m` and the remainder `j < n` of the
    position `n·i + j`. -/
theorem sum_fin_mul {M : Type*} [AddCommMonoid M] (m n : ℕ) (g : ℕ → M) :
    ∑ k : Fin (m * n), g k.val = ∑ i : Fin m, ∑ j : Fin n, g (n * i.val + j.val) := by
  rw [← Equiv.sum_comp finProdFinEquiv (fun k : Fin (m * n) => g k.val), Fintype.sum_prod_type]
  refine Finset.sum_congr rfl fun i _ => Finset.sum_congr rfl fun j _ => ?_
  show g (j.val + n * i.val) = g (n * i.val + j.val)
  rw [Nat.add_comm]

/-- A sum over the positions below `N = a·b·c` is the triple sum over blocks, rows and lanes of the row-major position. -/
theorem sum_fin_blocks {M : Type*} [AddCommMonoid M] (a b c N : ℕ) (hN : N = a * b * c) (g : ℕ → M) :
    ∑ k : Fin N, g k.val = ∑ t : Fin a, ∑ r : Fin b, ∑ l : Fin c, g ((b * t.val + r.val) * c + l.val) := by
  subst hN
  rw [sum_fin_mul (a * b) c g, sum_fin_mul a b (fun u => ∑ l : Fin c, g (c * u + l.val))]
  refine Finset.sum_congr rfl fun t _ => Finset.sum_congr rfl fun r _ => Finset.sum_congr rfl fun l _ => ?_
  rw [Nat.mul_comm c]

/-- The indices of a rank-1 array are its coordinates … -/
def idxEquiv1 {n : ℕ} : (⟨1, ![n]⟩ : Shape).Idx ≃ Fin n where
  toFun i := i 0
  invFun k := ix1 k
  left_inv i := (eq_ix1 i).symm
  right_inv _ := rfl

/-- … so a sum over them is the sum over the coordinate. -/
theorem sum_idx1 {M : Type*} [AddCommMonoid M] {n : ℕ} (f : (⟨1, ![n]⟩ : Shape).Idx → M) :
    ∑ i, f i = ∑ k : Fin n, f (ix1 k) := by
  rw [← Equiv.sum_comp (idxEquiv1 (n := n)).symm f]
  rfl

end Cert.Lib.SumBlocks
-- ==== Proof.LibAxisSums.lean ====
/-
  Sums along all axes but one, and a total accumulated block by block.

  * `run b n` is the total a block accumulator holds after block `n` when it is reset to `0 + b 0` at the first block
    and every later block adds its own contribution: the plain sum of the contributions up to `n` (`run_eq`). It holds
    in every commutative additive monoid.
  * A sum over a rank-5 index set is the fivefold sum over the coordinates (`sum_idx5`, the second coordinate innermost).
  * A host reduction of a rank-5 array [a, b, c, d, e] over every axis but the second gives, at channel `j`, the initial
    value plus the sum of `x (i0, j, i2, i3, i4)` over the four other coordinates (`hostReduceAdd_keep1`): the indices
    that drop to `j` are exactly those whose second coordinate is `j`. Stated for the extended reals' sum the host
    reduction denotes at the ideal values.
-/
import Idealize.ShloMosaic.Lib.ValueIdx
import Idealize.ShloMosaic.PureOps.Ideal.Laws

noncomputable section

namespace Cert.Lib.AxisSums

open Idealize.ShloMosaic Idealize.ShloMosaic.ValueIdx
open scoped BigOperators
/-- The accumulator's contents after block `n`: reset to `0 + b 0`, then one contribution added per block. -/
def run {M : Type*} [AddCommMonoid M] (b : ℕ → M) : ℕ → M
  | 0 => 0 + b 0
  | n + 1 => run b n + b (n + 1)

/-- It is the sum of the contributions of blocks `0 … n`. -/
theorem run_eq {M : Type*} [AddCommMonoid M] (b : ℕ → M) (n : ℕ) : run b n = ∑ s ∈ Finset.range (n + 1), b s := by
  induction n with
  | zero => rw [run, zero_add, Finset.sum_range_one]
  | succ n ih => rw [run, ih, Finset.sum_range_succ _ (n + 1)]

/-- A rank-5 index set as the product of its coordinate ranges, the second coordinate listed last. -/
def idxEquiv5 {n0 n1 n2 n3 n4 : Nat} :
    (⟨5, ![n0, n1, n2, n3, n4]⟩ : Shape).Idx ≃ Fin n0 × Fin n2 × Fin n3 × Fin n4 × Fin n1 where
  toFun i := (i 0, i 2, i 3, i 4, i 1)
  invFun p := ix5 p.1 p.2.2.2.2 p.2.1 p.2.2.1 p.2.2.2.1
  left_inv i := (eq_ix5 i).symm
  right_inv _ := rfl

/-- A sum over a rank-5 index set is the fivefold sum over the coordinates, the second coordinate innermost. -/
theorem sum_idx5 {M : Type*} [AddCommMonoid M] {n0 n1 n2 n3 n4 : Nat} (f : (⟨5, ![n0, n1, n2, n3, n4]⟩ : Shape).Idx → M) :
    ∑ i, f i = ∑ a : Fin n0, ∑ c : Fin n2, ∑ d : Fin n3, ∑ e : Fin n4, ∑ b : Fin n1, f (ix5 a b c d e) := by
  rw [← Equiv.sum_comp (idxEquiv5 (n0 := n0) (n1 := n1) (n2 := n2) (n3 := n3) (n4 := n4)).symm f, Fintype.sum_prod_type]
  simp only [Fintype.sum_prod_type]
  rfl

/-- The host's sum over every axis but the second of a rank-5 array, at a channel: the initial value plus the sum
    over the four other coordinates. -/
theorem hostReduceAdd_keep1 {a b c d e : Nat}
    (h : (⟨5, ![a, b, c, d, e]⟩ : Shape).ReducesTo [0, 2, 3, 4] ⟨1, ![b]⟩) (x : (⟨5, ![a, b, c, d, e]⟩ : Shape).Idx → EReal)
    (init : EReal) (j : Fin b) :
    Ideal.hostReduceAdd h x init (ix1 j)
      = init + ∑ i0 : Fin a, ∑ i2 : Fin c, ∑ i3 : Fin d, ∑ i4 : Fin e, x (ix5 i0 j i2 i3 i4) := by
  unfold Ideal.hostReduceAdd
  congr 1
  rw [Finset.sum_filter, sum_idx5]
  refine Finset.sum_congr rfl fun i0 _ => Finset.sum_congr rfl fun i2 _ => Finset.sum_congr rfl fun i3 _ =>
    Finset.sum_congr rfl fun i4 _ => ?_
  have hk : (⟨5, ![a, b, c, d, e]⟩ : Shape).kept [0, 2, 3, 4] = [(1 : Fin 5)] := by
    unfold Shape.kept; rfl
  have hb : ((0 : Fin 1) : ℕ) < ((⟨5, ![a, b, c, d, e]⟩ : Shape).kept [0, 2, 3, 4]).length := by rw [hk]; simp
  have hc : ((⟨5, ![a, b, c, d, e]⟩ : Shape).kept [0, 2, 3, 4])[((0 : Fin 1) : ℕ)] = (1 : Fin 5) := by simp [hk]
  have key : ∀ i1 : Fin b, (h.drop (ix5 i0 i1 i2 i3 i4) = ix1 j) ↔ i1 = j := by
    intro i1
    constructor
    · intro e'
      have e0 : ((h.drop (ix5 i0 i1 i2 i3 i4) (0 : Fin 1) : Fin b) : ℕ) = ((ix1 j) (0 : Fin 1) : Fin b).val :=
        congrArg (fun f : (⟨1, ![b]⟩ : Shape).Idx => ((f (0 : Fin 1) : Fin b) : ℕ)) e'
      rw [Shape.ReducesTo.drop_apply_val_of_eq h _ (0 : Fin 1) (1 : Fin 5) hb hc] at e0
      exact Fin.ext e0
    · rintro rfl
      funext q
      have hq : q = (0 : Fin 1) := Subsingleton.elim (α := Fin 1) _ _
      subst hq
      exact Fin.ext (Shape.ReducesTo.drop_apply_val_of_eq h _ (0 : Fin 1) (1 : Fin 5) hb hc)
  simp only [key, Finset.sum_ite_eq', Finset.mem_univ, if_true]

end Cert.Lib.AxisSums

end
-- ==== Proof.Spec.lean ====
/-
  What the two programs compute, index by index, and the two laws of finite sums that join a row of blocks to a whole row.

  For node features h : [8192, 256], weights W1 : [256, 64], b1 : [64], W2 : [64, 1], b2 : [1] the GATE of node n is

      e n = σ ( (∑ k < 64, max (∑ d < 256, h[n, d] · W1[d, k] + b1[k]) 0 · W2[k, 0]) + b2[0] ),   σ x = 1 / (1 + exp (−x)),

  every operation the extended reals' own; and for an adjacency g : [8192, 8192] the AGGREGATE at (n, d) is

      out[n, d] = ∑ k < 8192, (if g[n, k] > 0 then e k else 0) · h[k, d].

  The gate depends on row n of h only; the aggregate at (n, d) depends on row n of g, on every gate and on column d of h.
  A row of the aggregate is added up block by block, 1024 columns of g at a time: the sum over k < 8192 is the double sum
  over a block number j < 8 and a place l < 1024 inside the block at the position 1024 · j + l, and an accumulator that
  starts from 0, adds block 0, then block 1, … holds after block 7 the sum of the eight blocks. Both laws use only that
  the addition is associative and commutative with neutral element 0, which holds on the extended reals with no
  finiteness assumption.
-/
import Idealize.ShloMosaic.PureOps.Ideal
import Idealize.ShloMosaic.PureOps.Ideal.Laws
import Idealize.ShloMosaic.Lib.ValueIdx
import Idealize.ShloMosaic.Lib.Pipeline.Value
import proofs.«105632_j88545045774670_1_alg».proof.Proof.LibSumBlocks
import proofs.«105632_j88545045774670_1_alg».proof.Proof.LibAxisSums

noncomputable section

open scoped BigOperators

namespace Cert.Spec

open Idealize.ShloMosaic Idealize.ShloMosaic.ValueIdx

/-- The word of the float one denotes the extended real 1. -/
theorem ofBits_one_f32 : Ideal.ofBits .f32 0x3F800000#32 = 1 := by
  simp [Ideal.ofBits, Ideal.ieee, -EReal.coe_mul]; norm_num

/-- The gate of node n: the logistic function of the second layer's value at n. The inner sum is row n of h against
    column k of W1, shifted by b1[k] and cut below at 0; the outer sum is those 64 values against the one column of W2,
    shifted by b2[0]. -/
def gate (h : FVec Ideal ⟨2, ![8192, 256]⟩ .f32) (W1 : FVec Ideal ⟨2, ![256, 64]⟩ .f32) (b1 : FVec Ideal ⟨1, ![64]⟩ .f32)
    (W2 : FVec Ideal ⟨2, ![64, 1]⟩ .f32) (b2 : FVec Ideal ⟨1, ![1]⟩ .f32) (n : Fin 8192) : EReal :=
  Ideal.logistic
    ((∑ k : Fin 64, max ((∑ d : Fin 256, h (ix2 n d) * W1 (ix2 d k)) + b1 (ix1 k)) 0 * W2 (ix2 k (0 : Fin 1)))
      + b2 (ix1 (0 : Fin 1)))

/-- The aggregate at (n, d): over every node k, the gate of k where the adjacency entry g[n, k] is above 0 and 0 where it
    is not, times h[k, d]. The comparison is the extended reals' strict order (its result a one-bit word) and the choice
    is made on that word. -/
def agg (g : FVec Ideal ⟨2, ![8192, 8192]⟩ .f32) (h : FVec Ideal ⟨2, ![8192, 256]⟩ .f32) (e : Fin 8192 → EReal)
    (n : Fin 8192) (d : Fin 256) : EReal :=
  ∑ k : Fin 8192, Scalar.select (Ideal.cmp .ogt (g (ix2 n k)) 0) (e k) 0 * h (ix2 k d)

/-- The choice in the aggregate's summand, said with the order itself: the gate where the entry is above 0, else 0. -/
theorem select_ogt_zero (x y : EReal) : Scalar.select (Ideal.cmp .ogt x 0) y 0 = if 0 < x then y else 0 := by
  unfold Scalar.select Ideal.cmp
  by_cases hx : 0 < x <;> simp [hx]

/-- A sum over the 8192 positions of a row is the double sum over the block number j < 8 and the place l < 1024 inside the
    block, of the term at position 1024 · j + l. -/
theorem sum_blocks {M : Type*} [AddCommMonoid M] (F : Fin 8192 → M) :
    ∑ k : Fin 8192, F k = ∑ j : Fin 8, ∑ l : Fin 1024, F ⟨1024 * j.val + l.val, by have := j.isLt; have := l.isLt; omega⟩ := by
  let G : ℕ → M := fun p => if hp : p < 8192 then F ⟨p, hp⟩ else 0
  have hG : ∀ (p : ℕ) (hp : p < 8192), G p = F ⟨p, hp⟩ := fun p hp => dif_pos hp
  calc ∑ k : Fin 8192, F k = ∑ k : Fin (8 * 1024), G k.val :=
        Finset.sum_congr rfl fun k _ => (hG k.val k.isLt).symm
    _ = ∑ j : Fin 8, ∑ l : Fin 1024, G (1024 * j.val + l.val) := Cert.Lib.SumBlocks.sum_fin_mul 8 1024 G
    _ = _ := Finset.sum_congr rfl fun j _ => Finset.sum_congr rfl fun l _ => hG _ _

/-- The accumulator of a row of blocks: it starts from 0 and takes block 0, and each later block is added to what it
    holds. After the last of the eight blocks it holds their sum. -/
theorem acc_eight {M : Type*} [AddCommMonoid M] (b : ℕ → M) : Cert.Lib.AxisSums.run b 7 = ∑ j : Fin 8, b j.val := by
  rw [Cert.Lib.AxisSums.run_eq, Finset.sum_range]

/-- The two laws together, as the blocked computation of a row uses them: when block j contributes the sum of the terms
    at its 1024 positions, the accumulator after block 7 holds the sum over all 8192 positions. -/
theorem acc_blocks {M : Type*} [AddCommMonoid M] (F : Fin 8192 → M) (b : ℕ → M)
    (hb : ∀ j : Fin 8, b j.val = ∑ l : Fin 1024, F ⟨1024 * j.val + l.val, by have := j.isLt; have := l.isLt; omega⟩) :
    Cert.Lib.AxisSums.run b 7 = ∑ k : Fin 8192, F k := by
  rw [acc_eight, sum_blocks]
  exact Finset.sum_congr rfl fun j _ => hb j

end Cert.Spec

end
-- ==== Proof.KI.Pay.lean ====
/-
  The arithmetic of the two kernel bodies, read at one element.

  The gate body, on a block of 1024 rows of h, computes for row l of the block the logistic function of
  (∑ k < 64, max (∑ d < 256, h[l, d] · W1[d, k] + b1[0, k]) 0 · W2[k, 0]) + b2[0, 0] and stores it at place l of a row of 1024
  gates: the two matrix products into a zero accumulator are plain sums over the contracted axis, the changes of float
  format are the identity on the extended reals, the bias rows are broadcast down the rows, and the transpose only moves
  the value from (l, 0) to (0, l).

  The aggregate body first zeroes its accumulator block, then at every step adds to the accumulator at (r, d) the sum over
  the 1024 places k of the step's block of (the gate at place k where the adjacency block is above 0 at (r, k), else 0)
  times the feature block at (k, d).
-/
import proofs.«105632_j88545045774670_1_alg».proof.Proof.Gen.KernelIdeal.Skeleton
import proofs.«105632_j88545045774670_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-! ## The three matrix products into a zero accumulator, at an element

Each contracts the one inner axis: the product at (r, c) is the sum over k of the left operand at (r, k) times the right
operand at (k, c). The index lemmas say where the product's dimension numbers send an output index and a contraction
position. -/

theorem mm1_lhs0 (i : S1024x64.Idx) (q : dot_S1024x256_S256x64_S1024x64_1_0_0_1_n_n.contr.Idx) :
    (dot_S1024x256_S256x64_S1024x64_1_0_0_1_n_n.lhsIdx i q 0).val = (i 0).val := by
  unfold DotDims.lhsIdx
  rw [dif_neg (show ¬(0 : Fin S1024x256.rank) ∈ dot_S1024x256_S256x64_S1024x64_1_0_0_1_n_n.lhsBatch by decide), dif_pos (show (0 : Fin S1024x256.rank) ∈ dot_S1024x256_S256x64_S1024x64_1_0_0_1_n_n.lhsNonContracting by decide)]
  rfl
theorem mm1_lhs1 (i : S1024x64.Idx) (q : dot_S1024x256_S256x64_S1024x64_1_0_0_1_n_n.contr.Idx) :
    (dot_S1024x256_S256x64_S1024x64_1_0_0_1_n_n.lhsIdx i q 1).val = (q ⟨0, by decide⟩).val :=
  dot_S1024x256_S256x64_S1024x64_1_0_0_1_n_n.lhsIdx_val_of_single rfl i q
theorem mm1_rhs0 (i : S1024x64.Idx) (q : dot_S1024x256_S256x64_S1024x64_1_0_0_1_n_n.contr.Idx) :
    (dot_S1024x256_S256x64_S1024x64_1_0_0_1_n_n.rhsIdx i q 0).val = (q ⟨0, by decide⟩).val :=
  dot_S1024x256_S256x64_S1024x64_1_0_0_1_n_n.rhsIdx_val_of_single rfl i q
theorem mm1_rhs1 (i : S1024x64.Idx) (q : dot_S1024x256_S256x64_S1024x64_1_0_0_1_n_n.contr.Idx) :
    (dot_S1024x256_S256x64_S1024x64_1_0_0_1_n_n.rhsIdx i q 1).val = (i 1).val := by
  unfold DotDims.rhsIdx
  rw [dif_neg (show ¬(1 : Fin S256x64.rank) ∈ dot_S1024x256_S256x64_S1024x64_1_0_0_1_n_n.rhsBatch by decide), dif_pos (show (1 : Fin S256x64.rank) ∈ dot_S1024x256_S256x64_S1024x64_1_0_0_1_n_n.rhsNonContracting by decide)]
  rfl

/-- A block of 1024 rows of node features against the first layer's weights: at (r, c) the sum over the 256 features. -/
theorem mm1_apply {φ₁ φ₂ : FTy} (A : FVec Ideal S1024x256 φ₁) (B : FVec Ideal S256x64 φ₂) (r : Fin 1024) (c : Fin 64) :
    matmul dot_S1024x256_S256x64_S1024x64_1_0_0_1_n_n none A B (constant S1024x64 .f32 0x00000000#32) (ix2 r c)
      = ∑ k : Fin 256, A (ix2 r k) * B (ix2 k c) := by
  simp only [matmul]
  rw [Ideal.matmul_constant_zero_apply, ← Equiv.sum_comp (contrEquiv1 dot_S1024x256_S256x64_S1024x64_1_0_0_1_n_n 256 rfl rfl).symm]
  refine Finset.sum_congr rfl fun k _ => ?_
  have hk := contrEquiv1_symm_val dot_S1024x256_S256x64_S1024x64_1_0_0_1_n_n 256 rfl rfl k
  have el : dot_S1024x256_S256x64_S1024x64_1_0_0_1_n_n.lhsIdx (ix2 r c) ((contrEquiv1 dot_S1024x256_S256x64_S1024x64_1_0_0_1_n_n 256 rfl rfl).symm k) = ix2 r k :=
    funext fun a => Fin.ext (by
      match a with
      | ⟨0, _⟩ => exact mm1_lhs0 _ _
      | ⟨1, _⟩ => exact (mm1_lhs1 _ _).trans hk)
  have er : dot_S1024x256_S256x64_S1024x64_1_0_0_1_n_n.rhsIdx (ix2 r c) ((contrEquiv1 dot_S1024x256_S256x64_S1024x64_1_0_0_1_n_n 256 rfl rfl).symm k) = ix2 k c :=
    funext fun a => Fin.ext (by
      match a with
      | ⟨0, _⟩ => exact (mm1_rhs0 _ _).trans hk
      | ⟨1, _⟩ => exact mm1_rhs1 _ _)
  rw [el, er]

theorem mm2_lhs0 (i : S1024x1.Idx) (q : dot_S1024x64_S64x1_S1024x1_1_0_0_1_n_n.contr.Idx) :
    (dot_S1024x64_S64x1_S1024x1_1_0_0_1_n_n.lhsIdx i q 0).val = (i 0).val := by
  unfold DotDims.lhsIdx
  rw [dif_neg (show ¬(0 : Fin S1024x64.rank) ∈ dot_S1024x64_S64x1_S1024x1_1_0_0_1_n_n.lhsBatch by decide), dif_pos (show (0 : Fin S1024x64.rank) ∈ dot_S1024x64_S64x1_S1024x1_1_0_0_1_n_n.lhsNonContracting by decide)]
  rfl
theorem mm2_lhs1 (i : S1024x1.Idx) (q : dot_S1024x64_S64x1_S1024x1_1_0_0_1_n_n.contr.Idx) :
    (dot_S1024x64_S64x1_S1024x1_1_0_0_1_n_n.lhsIdx i q 1).val = (q ⟨0, by decide⟩).val :=
  dot_S1024x64_S64x1_S1024x1_1_0_0_1_n_n.lhsIdx_val_of_single rfl i q
theorem mm2_rhs0 (i : S1024x1.Idx) (q : dot_S1024x64_S64x1_S1024x1_1_0_0_1_n_n.contr.Idx) :
    (dot_S1024x64_S64x1_S1024x1_1_0_0_1_n_n.rhsIdx i q 0).val = (q ⟨0, by decide⟩).val :=
  dot_S1024x64_S64x1_S1024x1_1_0_0_1_n_n.rhsIdx_val_of_single rfl i q
theorem mm2_rhs1 (i : S1024x1.Idx) (q : dot_S1024x64_S64x1_S1024x1_1_0_0_1_n_n.contr.Idx) :
    (dot_S1024x64_S64x1_S1024x1_1_0_0_1_n_n.rhsIdx i q 1).val = (i 1).val := by
  unfold DotDims.rhsIdx
  rw [dif_neg (show ¬(1 : Fin S64x1.rank) ∈ dot_S1024x64_S64x1_S1024x1_1_0_0_1_n_n.rhsBatch by decide), dif_pos (show (1 : Fin S64x1.rank) ∈ dot_S1024x64_S64x1_S1024x1_1_0_0_1_n_n.rhsNonContracting by decide)]
  rfl

/-- The 64 hidden values of each of 1024 rows against the second layer's one column: at (r, c) the sum over the 64 hidden units. -/
theorem mm2_apply {φ₁ φ₂ : FTy} (A : FVec Ideal S1024x64 φ₁) (B : FVec Ideal S64x1 φ₂) (r : Fin 1024) (c : Fin 1) :
    matmul dot_S1024x64_S64x1_S1024x1_1_0_0_1_n_n none A B (constant S1024x1 .f32 0x00000000#32) (ix2 r c)
      = ∑ k : Fin 64, A (ix2 r k) * B (ix2 k c) := by
  simp only [matmul]
  rw [Ideal.matmul_constant_zero_apply, ← Equiv.sum_comp (contrEquiv1 dot_S1024x64_S64x1_S1024x1_1_0_0_1_n_n 64 rfl rfl).symm]
  refine Finset.sum_congr rfl fun k _ => ?_
  have hk := contrEquiv1_symm_val dot_S1024x64_S64x1_S1024x1_1_0_0_1_n_n 64 rfl rfl k
  have el : dot_S1024x64_S64x1_S1024x1_1_0_0_1_n_n.lhsIdx (ix2 r c) ((contrEquiv1 dot_S1024x64_S64x1_S1024x1_1_0_0_1_n_n 64 rfl rfl).symm k) = ix2 r k :=
    funext fun a => Fin.ext (by
      match a with
      | ⟨0, _⟩ => exact mm2_lhs0 _ _
      | ⟨1, _⟩ => exact (mm2_lhs1 _ _).trans hk)
  have er : dot_S1024x64_S64x1_S1024x1_1_0_0_1_n_n.rhsIdx (ix2 r c) ((contrEquiv1 dot_S1024x64_S64x1_S1024x1_1_0_0_1_n_n 64 rfl rfl).symm k) = ix2 k c :=
    funext fun a => Fin.ext (by
      match a with
      | ⟨0, _⟩ => exact (mm2_rhs0 _ _).trans hk
      | ⟨1, _⟩ => exact mm2_rhs1 _ _)
  rw [el, er]

theorem mm3_lhs0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem mm3_lhs1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem mm3_rhs0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem mm3_rhs1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- A 1024 by 1024 block of masked gates against a block of 1024 rows of node features: at (r, c) the sum over the block's 1024 places. -/
theorem mm3_apply {φ₁ φ₂ : FTy} (A : FVec Ideal S1024x1024 φ₁) (B : FVec Ideal S1024x256 φ₂) (r : Fin 1024) (c : Fin 256) :
    matmul dot_S1024x1024_S1024x256_S1024x256_1_0_0_1_n_n none A B (constant S1024x256 .f32 0x00000000#32) (ix2 r c)
      = ∑ k : Fin 1024, A (ix2 r k) * B (ix2 k c) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 r c) ((contrEquiv1 dot_S1024x1024_S1024x256_S1024x256_1_0_0_1_n_n 1024 rfl rfl).symm k) = ix2 r k :=
    funext fun a => Fin.ext (by
      match a with
      | ⟨0, _⟩ => exact mm3_lhs0 _ _
      | ⟨1, _⟩ => exact (mm3_lhs1 _ _).trans hk)
  have er : dot_S1024x1024_S1024x256_S1024x256_1_0_0_1_n_n.rhsIdx (ix2 r c) ((contrEquiv1 dot_S1024x1024_S1024x256_S1024x256_1_0_0_1_n_n 1024 rfl rfl).symm k) = ix2 k c :=
    funext fun a => Fin.ext (by
      match a with
      | ⟨0, _⟩ => exact (mm3_rhs0 _ _).trans hk
      | ⟨1, _⟩ => exact mm3_rhs1 _ _)
  rw [el, er]

/-! ## The payloads at an element -/

/-- THE GATE BODY. Place l of the stored row is the logistic function of the second layer's value on row l of the block
    of node features: inner sums against the columns of the first weights, shifted by the bias row, cut below at 0;
    then the sum against the second weights' one column, shifted by the one-entry bias. -/
theorem k0_pay1_apply (v0 : Vec Ideal S1024x256 .f32) (v2 : Vec Ideal S256x64 .f32) (v5 : Vec Ideal S1x64 .f32)
    (v11 : Vec Ideal S64x1 .f32) (v15 : Vec Ideal S1x1 .f32) (l : Fin 1024) :
    k0_pay1 (F := Ideal) v0 v2 v5 v11 v15 (ix2 (0 : Fin 1) l)
      = Ideal.logistic
          ((∑ k : Fin 64, max ((∑ d : Fin 256, v0 (ix2 l d) * v2 (ix2 d k)) + v5 (ix2 (0 : Fin 1) k)) 0 * v11 (ix2 k (0 : Fin 1)))
            + v15 (ix2 (0 : Fin 1) (0 : Fin 1))) := by
  unfold k0_pay1
  refine (transpose_ix2_apply _ _ (0 : Fin 1) l).trans ?_
  refine congrArg Ideal.logistic ?_
  refine congrArg₂ (· + ·) ?_ ?_
  · refine (mm2_apply _ _ l (0 : Fin 1)).trans ?_
    refine Finset.sum_congr rfl fun k _ => ?_
    refine congrArg₂ (· * ·) ?_ rfl
    refine congrArg₂ max ?_ Ideal.ofBits_zero_f32
    refine congrArg₂ (· + ·) (mm1_apply _ _ l k) ?_
    exact (broadcastTo_1b_ab_apply _ _ l k).trans (congrFun (shapeCast_self v5 _) _)
  · exact (broadcastTo_1b_ab_apply _ _ l (0 : Fin 1)).trans (congrFun (shapeCast_self v15 _) _)

/-- THE AGGREGATE BODY'S RESET. The block it stores at the first step of a row of blocks is 0 everywhere. -/
theorem k1_pay1_apply (r : Fin 1024) (d : Fin 256) : k1_pay1 (F := Ideal) (ix2 r d) = 0 := by
  unfold k1_pay1
  refine (congrFun (shapeCast_self _ _) _).trans ?_
  exact Ideal.ofBits_zero_f32

/-- THE AGGREGATE BODY'S STEP. At (r, d) the new accumulator is the old one plus the sum over the 1024 places k of the
    step's block of: the gate at place k where the adjacency block's entry (r, k) is above 0, else 0, times the feature
    block's entry (k, d). -/
theorem k1_pay2_apply (v6 : Vec Ideal S1024x256 .f32) (v8 : Vec Ideal S1x1024 .f32) (v10 : Vec Ideal S1024x1024 .f32)
    (v17 : Vec Ideal S1024x256 .f32) (r : Fin 1024) (d : Fin 256) :
    k1_pay2 (F := Ideal) v6 v8 v10 v17 (ix2 r d)
      = v17 (ix2 r d)
          + ∑ k : Fin 1024, Scalar.select (Ideal.cmp .ogt (v10 (ix2 r k)) 0) (v8 (ix2 (0 : Fin 1) k)) 0 * v6 (ix2 k d) := by
  unfold k1_pay2
  refine (congrFun (shapeCast_self _ _) _).trans ?_
  refine congrArg₂ (· + ·) rfl ?_
  refine (mm3_apply _ _ r d).trans ?_
  refine Finset.sum_congr rfl fun k _ => ?_
  refine congrArg₂ (· * ·) ?_ rfl
  have hb : broadcastTo S1024x1024 (shapeCast S1x1024 (shapeCast S1x1024 v8 shapeCasts_S1x1024_S1x1024) shapeCasts_S1x1024_S1x1024)
      broadcasts_S1x1024_S1024x1024 (ix2 r k) = v8 (ix2 (0 : Fin 1) k) :=
    (broadcastTo_1b_ab_apply _ _ r k).trans
      ((congrFun (shapeCast_self _ _) _).trans (congrFun (shapeCast_self v8 _) _))
  exact congrArg₂ (fun z y : EReal => Scalar.select (Ideal.cmp .ogt (v10 (ix2 r k)) z) y z) Ideal.ofBits_zero_f32 hb

end Cert.KernelIdeal.Pay

end
-- ==== Proof.KI.Gate.lean ====
/-
  The gate row the first region leaves is the specification's gate of the launch arrays.

  Entry q of the row was stored by grid point q / 1024 at place q mod 1024 of its block: the body's function of the five
  input blocks there. The feature block's row q mod 1024 at that point is row q of the feature matrix as launched; the
  weight blocks are the weight matrices as launched; the bias blocks are the host's reshapes of the bias vectors. Put
  into the body's arithmetic read at one element, this is the gate of node q.
-/
import proofs.«105632_j88545045774670_1_alg».proof.Proof.KI.Val0
import proofs.«105632_j88545045774670_1_alg».proof.Proof.KI.Bound
import proofs.«105632_j88545045774670_1_alg».proof.Proof.KI.Pay
import proofs.«105632_j88545045774670_1_alg».proof.Proof.Spec

set_option maxRecDepth 16384

noncomputable section

open scoped BigOperators

namespace Cert.KernelIdeal.Fr

open Cert.KernelIdeal Cert.KernelIdeal.Gen
open Idealize.ShloMosaic Idealize.ShloMosaic.TcCoe Idealize.SL.Sem
open Idealize.ShloMosaic.ValueIdx

/-- The body's function of five blocks, at place `l`, is the gate of node `q` of five arrays whenever row `l` of the
    feature block is row `q` of the feature matrix, the weight blocks are the weight matrices, and the bias blocks hold
    the bias vectors' entries. -/
theorem gate_of_blocks (x0 : Vec Ideal S1024x256 .f32) (x1 : Vec Ideal S256x64 .f32) (x2 : Vec Ideal S1x64 .f32)
    (x3 : Vec Ideal S64x1 .f32) (x4 : Vec Ideal S1x1 .f32)
    (h : FVec Ideal ⟨2, ![8192, 256]⟩ .f32) (W1 : FVec Ideal ⟨2, ![256, 64]⟩ .f32) (b1 : FVec Ideal ⟨1, ![64]⟩ .f32)
    (W2 : FVec Ideal ⟨2, ![64, 1]⟩ .f32) (b2 : FVec Ideal ⟨1, ![1]⟩ .f32) (q : Fin 8192) (l : Fin 1024)
    (h0 : ∀ d : Fin 256, x0 (ix2 l d) = h (ix2 q d)) (h1 : ∀ (d : Fin 256) (k : Fin 64), x1 (ix2 d k) = W1 (ix2 d k))
    (h2 : ∀ k : Fin 64, x2 (ix2 (0 : Fin 1) k) = b1 (ix1 k)) (h3 : ∀ k : Fin 64, x3 (ix2 k (0 : Fin 1)) = W2 (ix2 k (0 : Fin 1)))
    (h4 : x4 (ix2 (0 : Fin 1) (0 : Fin 1)) = b2 (ix1 (0 : Fin 1))) :
    k0_pay1 (F := Ideal) x0 x1 x2 x3 x4 (ix2 (0 : Fin 1) l) = Cert.Spec.gate h W1 b1 W2 b2 q := by
  refine (Cert.KernelIdeal.Pay.k0_pay1_apply x0 x1 x2 x3 x4 l).trans ?_
  unfold Cert.Spec.gate
  refine congrArg Ideal.logistic ?_
  refine congrArg₂ (· + ·) ?_ h4
  refine Finset.sum_congr rfl fun k _ => ?_
  refine congrArg₂ (· * ·) ?_ (h3 k)
  refine congrArg₂ max ?_ rfl
  refine congrArg₂ (· + ·) ?_ (h2 k)
  exact Finset.sum_congr rfl fun d _ => congrArg₂ (· * ·) (h0 d) (h1 d k)

/-- THE GATE ROW after the first region, entry by entry: the gate of node `q` of the arrays as launched. -/
theorem gate_row (m : (ℓ : Loc nD τ sig) → Buf (Elt Ideal) ℓ) (c : Dev nD) (q : Fin 8192) :
    ((dat0 (Vr1 m) c).arrAt 5 cfg0.N : S1x8192.Idx → EReal) (ix2 (0 : Fin 1) q)
      = Cert.Spec.gate (m ((c : Thread nD τ).loc main_arg1)) (m ((c : Thread nD τ).loc main_arg2)) (m ((c : Thread nD τ).loc main_arg3))
          (m ((c : Thread nD τ).loc main_arg4)) (m ((c : Thread nD τ).loc main_arg5)) q := by
  have hlt : 1024 * (pt0 q).val + (ln0 q).val < 8192 := by
    show 1024 * (q.val / 1024) + q.val % 1024 < 8192
    have := q.isLt; omega
  have hq : (⟨1024 * (pt0 q).val + (ln0 q).val, hlt⟩ : Fin 8192) = q := Fin.ext (by
    show 1024 * (q.val / 1024) + q.val % 1024 = q.val
    omega)
  refine (arr0_5_at (Vr1 m) c q).trans ?_
  refine gate_of_blocks (iblk0 (Vr1 m) c 0 (pt0 q)) (iblk0 (Vr1 m) c 1 (pt0 q)) (iblk0 (Vr1 m) c 2 (pt0 q))
    (iblk0 (Vr1 m) c 3 (pt0 q)) (iblk0 (Vr1 m) c 4 (pt0 q))
    (m ((c : Thread nD τ).loc main_arg1)) (m ((c : Thread nD τ).loc main_arg2)) (m ((c : Thread nD τ).loc main_arg3))
    (m ((c : Thread nD τ).loc main_arg4)) (m ((c : Thread nD τ).loc main_arg5)) q (ln0 q) ?_ ?_ ?_ ?_ ?_
  · intro d
    refine (iblk0_0_apply (Vr1 m) c (pt0 q) (ln0 q) d hlt).trans ?_
    rw [hq]
    exact congrFun (Vr1_main_arg1 m c) _
  · intro d k
    exact (congrFun (iblk0_1_eq (Vr1 m) c (pt0 q)) _).trans (congrFun (Vr1_main_arg2 m c) _)
  · intro k
    exact (congrFun (iblk0_2_eq (Vr1 m) c (pt0 q)) _).trans (Vr1_main_v0_apply m c k)
  · intro k
    exact (congrFun (iblk0_3_eq (Vr1 m) c (pt0 q)) _).trans (congrFun (Vr1_main_arg4 m c) _)
  · exact (congrFun (iblk0_4_eq (Vr1 m) c (pt0 q)) _).trans (Vr1_main_v1_apply m c)

end Cert.KernelIdeal.Fr

end
-- ==== Proof.KI.Args.lean ====
/-
  The run's boundary valuations read at the buffers the claims speak of. No host operation and no region writes
  an argument array (a region reads it through an input window or never touches it), so each argument's buffer
  walks back to the launch memory; region 1 finds the adjacency and the features as launched and the gate row as
  region 0 left it; the first result is what region 1's write-backs leave, the second the transpose of the gate row.
-/
import proofs.«105632_j88545045774670_1_alg».proof.Proof.KI.Run
import proofs.«105632_j88545045774670_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem Wl1_of (c : Dev nD) (r : Ref sig .tc) (h : r ∉ hostOps0_W) : Wl1 m c r = Wl0 m c r :=
  StableHlo.after_of_writes_sub hostOps0 _ hostOps0_writes h
theorem Wl4_of (c : Dev nD) (r : Ref sig .tc) (h : r ∉ hostOps2_W) : Wl4 m c r = Wl3 m c r :=
  StableHlo.after_of_writes_sub hostOps2 _ hostOps2_writes h

theorem Wl2_main_arg0 (c : Dev nD) : Wl2 m c (Proc.devRef .tc main_arg0) = m ((c : Thread nD τ).loc main_arg0) :=
  (Wl2_of_ne m c main_arg0 (by decide)).trans ((Wl1_of m c main_arg0 (by decide)).trans rfl)
theorem Wl4_main_arg0 (c : Dev nD) : Wl4 m c (Proc.devRef .tc main_arg0) = m ((c : Thread nD τ).loc main_arg0) :=
  (Wl4_of m c main_arg0 (by decide)).trans (((Wl3_arr m c 0).trans (((dat1 (Vr2 m) c).arrAt_in 0 rfl _).trans (A_eq1 (Vr2 m) c 0))).trans (Wl2_main_arg0 m c))
theorem Wl2_main_arg1 (c : Dev nD) : Wl2 m c (Proc.devRef .tc main_arg1) = m ((c : Thread nD τ).loc main_arg1) :=
  ((Wl2_arr m c 0).trans (((dat0 (Vr1 m) c).arrAt_in 0 rfl _).trans (A_eq0 (Vr1 m) c 0))).trans ((Wl1_of m c main_arg1 (by decide)).trans rfl)
theorem Wl4_main_arg1 (c : Dev nD) : Wl4 m c (Proc.devRef .tc main_arg1) = m ((c : Thread nD τ).loc main_arg1) :=
  (Wl4_of m c main_arg1 (by decide)).trans (((Wl3_arr m c 1).trans (((dat1 (Vr2 m) c).arrAt_in 1 rfl _).trans (A_eq1 (Vr2 m) c 1))).trans (Wl2_main_arg1 m c))
theorem Wl2_main_arg2 (c : Dev nD) : Wl2 m c (Proc.devRef .tc main_arg2) = m ((c : Thread nD τ).loc main_arg2) :=
  ((Wl2_arr m c 1).trans (((dat0 (Vr1 m) c).arrAt_in 1 rfl _).trans (A_eq0 (Vr1 m) c 1))).trans ((Wl1_of m c main_arg2 (by decide)).trans rfl)
theorem Wl4_main_arg2 (c : Dev nD) : Wl4 m c (Proc.devRef .tc main_arg2) = m ((c : Thread nD τ).loc main_arg2) :=
  (Wl4_of m c main_arg2 (by decide)).trans ((Wl3_of_ne m c main_arg2 (by decide)).trans (Wl2_main_arg2 m c))
theorem Wl2_main_arg3 (c : Dev nD) : Wl2 m c (Proc.devRef .tc main_arg3) = m ((c : Thread nD τ).loc main_arg3) :=
  (Wl2_of_ne m c main_arg3 (by decide)).trans ((Wl1_of m c main_arg3 (by decide)).trans rfl)
theorem Wl4_main_arg3 (c : Dev nD) : Wl4 m c (Proc.devRef .tc main_arg3) = m ((c : Thread nD τ).loc main_arg3) :=
  (Wl4_of m c main_arg3 (by decide)).trans ((Wl3_of_ne m c main_arg3 (by decide)).trans (Wl2_main_arg3 m c))
theorem Wl2_main_arg4 (c : Dev nD) : Wl2 m c (Proc.devRef .tc main_arg4) = m ((c : Thread nD τ).loc main_arg4) :=
  ((Wl2_arr m c 3).trans (((dat0 (Vr1 m) c).arrAt_in 3 rfl _).trans (A_eq0 (Vr1 m) c 3))).trans ((Wl1_of m c main_arg4 (by decide)).trans rfl)
theorem Wl4_main_arg4 (c : Dev nD) : Wl4 m c (Proc.devRef .tc main_arg4) = m ((c : Thread nD τ).loc main_arg4) :=
  (Wl4_of m c main_arg4 (by decide)).trans ((Wl3_of_ne m c main_arg4 (by decide)).trans (Wl2_main_arg4 m c))
theorem Wl2_main_arg5 (c : Dev nD) : Wl2 m c (Proc.devRef .tc main_arg5) = m ((c : Thread nD τ).loc main_arg5) :=
  (Wl2_of_ne m c main_arg5 (by decide)).trans ((Wl1_of m c main_arg5 (by decide)).trans rfl)
theorem Wl4_main_arg5 (c : Dev nD) : Wl4 m c (Proc.devRef .tc main_arg5) = m ((c : Thread nD τ).loc main_arg5) :=
  (Wl4_of m c main_arg5 (by decide)).trans ((Wl3_of_ne m c main_arg5 (by decide)).trans (Wl2_main_arg5 m c))

/-- Region 1 is entered with the gate row at what region 0's write-backs left. -/
theorem Wl2_main_v2 (c : Dev nD) : Wl2 m c (Proc.devRef .tc main_v2) = (dat0 (Vr1 m) c).arrAt 5 cfg0.N :=
  Wl2_arr m c 5
/-- The first result: what region 1's write-backs leave. -/
theorem Wl4_main_v3 (c : Dev nD) : Wl4 m c (Proc.devRef .tc main_v3) = (dat1 (Vr2 m) c).arrAt 3 cfg1.N :=
  (Wl4_of m c main_v3 (by decide)).trans (Wl3_arr m c 3)
/-- The gate row is not touched by region 1. -/
theorem Wl3_main_v2 (c : Dev nD) : Wl3 m c (Proc.devRef .tc main_v2) = (dat0 (Vr1 m) c).arrAt 5 cfg0.N :=
  ((Wl3_arr m c 2).trans (((dat1 (Vr2 m) c).arrAt_in 2 rfl _).trans (A_eq1 (Vr2 m) c 2))).trans (Wl2_main_v2 m c)

end Cert.KernelIdeal.Fr

end
-- ==== Proof.KI.Frame.lean ====
/-
  What the claims read off the run: every argument array ends as launched (the frame), and the two results end
  at the named contents — the first what region 1's write-backs leave, the second the last boundary's contents of
  the transposed gate row.
-/
import proofs.«105632_j88545045774670_1_alg».proof.Proof.KI.Args

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame: every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
      (h c _ (mem_uc main_arg0 (by decide))).trans (Wl4_main_arg0 m c),
      (h c _ (mem_uc main_arg1 (by decide))).trans (Wl4_main_arg1 m c),
      (h c _ (mem_uc main_arg2 (by decide))).trans (Wl4_main_arg2 m c),
      (h c _ (mem_uc main_arg3 (by decide))).trans (Wl4_main_arg3 m c),
      (h c _ (mem_uc main_arg4 (by decide))).trans (Wl4_main_arg4 m c),
      (h c _ (mem_uc main_arg5 (by decide))).trans (Wl4_main_arg5 m c)⟩) (run_all m ρ)

/-- The same run with the two results named. -/
theorem run_vals : θ_run defs (onTc (τ := τ) (main (F := F))) ⟨m, fun _ => 0, ρ⟩ (fun r => ∀ c : Dev nD,
      r.2.mem ((c.tc : Thread nD τ).loc main_v3) = (dat1 (Vr2 m) c).arrAt 3 cfg1.N
      ∧ r.2.mem ((c.tc : Thread nD τ).loc main_v4) = Wl4 m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
      (h c _ (mem_uc main_v3 (by decide))).trans (Wl4_main_v3 m c),
      h c _ (mem_uc main_v4 (by decide)),
      (h c _ (mem_uc main_arg0 (by decide))).trans (Wl4_main_arg0 m c),
      (h c _ (mem_uc main_arg1 (by decide))).trans (Wl4_main_arg1 m c),
      (h c _ (mem_uc main_arg2 (by decide))).trans (Wl4_main_arg2 m c),
      (h c _ (mem_uc main_arg3 (by decide))).trans (Wl4_main_arg3 m c),
      (h c _ (mem_uc main_arg4 (by decide))).trans (Wl4_main_arg4 m c),
      (h c _ (mem_uc main_arg5 (by decide))).trans (Wl4_main_arg5 m c)⟩) (run_all m ρ)

end Cert.KernelIdeal.Fr

end
-- ==== Proof.KI.Pieces1.lean ====
/-
  Region 1: what each control case leaves, as plain terms of the body's payloads. With x0 the point's block of
  the adjacency, and the slices of the resident operands the body loads (rows 1024 j … of the features, columns
  1024 j … of the gate row), every case leaves in the accumulator step(acc) = acc + (block product), where acc is
  the zero block at a first column block and what the point before left otherwise; at a last column block the
  output block receives the same value.
-/
import proofs.«105632_j88545045774670_1_alg».proof.Proof.KI.Frame1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two index offsets of a whole-buffer rectangle are zero. -/
theorem hz2 : (![0, 0] : Fin 2 → Nat) = fun _ => 0 := by
  funext a; match a with | ⟨0, _⟩ => rfl | ⟨1, _⟩ => rfl

/-- One point's step on the accumulator: the payload of the accumulating store, over the point's loads. -/
def step1 (i : grid1.Coords) (x0 : Vec F S1024x1024 .f32) (x1 : Vec F S8192x256 .f32) (x2 : Vec F S1x8192 .f32)
    (acc : Vec F S1024x256 .f32) : Vec F S1024x256 .f32 :=
  k1_pay2 (View.ld x1 (Rect.unit (s := S8192x256) (k1_off1 i) S1024x256.size (k1_off1_inb i))) (View.ld x2 (Rect.unit (s := S1x8192) (k1_off2 i) S1x1024.size (k1_off2_inb i))) x0 acc

theorem sout1_B_0_eq (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x1024 .f32) (x1 : Vec F S8192x256 .f32) (x2 : Vec F S1x8192 .f32) (xs0 : Vec F S1024x256 .f32) :
    sout1_B_0 c i arg2 harg2 arg3 harg3 arg4 harg4 arg5 harg5 arg6 harg6 hc0 hc1 x0 x1 x2 xs0 = step1 i x0 x1 x2 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero hz2]
  simp only [View.readAt_eq_ld, harg2.read_unread, harg3.read_unread, harg4.read_unread, harg6.read_unread, View.ld_unit_zero (S := S1024x1024) hz2, View.ld_unit_zero (S := S1024x256) hz2]
  rfl

theorem sout1_C_0_eq (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x1024 .f32) (x1 : Vec F S8192x256 .f32) (x2 : Vec F S1x8192 .f32) (xs0 : Vec F S1024x256 .f32) :
    sout1_C_0 c i arg2 harg2 arg3 harg3 arg4 harg4 arg5 harg5 arg6 harg6 hc0 hc1 x0 x1 x2 xs0 = step1 i x0 x1 x2 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero hz2]
  simp only [View.readAt_eq_ld, harg2.read_unread, harg3.read_unread, harg4.read_unread, harg6.read_unread, View.ld_unit_zero (S := S1024x1024) hz2, View.ld_unit_zero (S := S1024x256) hz2]
  rfl

theorem sout1_A_0_eq (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x1024 .f32) (x1 : Vec F S8192x256 .f32) (x2 : Vec F S1x8192 .f32) :
    sout1_A_0 c i arg2 harg2 arg3 harg3 arg4 harg4 arg5 harg5 arg6 harg6 hc0 hc1 x0 x1 x2 = step1 i x0 x1 x2 (k1_pay1 (F := F)) := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero hz2]
  simp only [View.readAt_eq_ld, harg2.read_unread, harg3.read_unread, harg4.read_unread, harg6.read_unread, View.readCov_unit_zero (S := S1024x256) _ hz2, View.ld_unit_zero (S := S1024x1024) hz2, View.ld_unit_zero (S := S1024x256) hz2]
  rfl

theorem out1_C_3_eq (c : Dev nD) (i : grid1.Coords) (arg2 : Memref sig .tc .vmem S1024x1024 .f32) (harg2 : arg2.IsWhole) (arg3 : Memref sig .tc .vmem S8192x256 .f32) (harg3 : arg3.IsWhole) (arg4 : Memref sig .tc .vmem S1x8192 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x1024 .f32) (x1 : Vec F S8192x256 .f32) (x2 : Vec F S1x8192 .f32) (xs0 : Vec F S1024x256 .f32) :
    out1_C_3 c i arg2 harg2 arg3 harg3 arg4 harg4 arg5 harg5 arg6 harg6 hc0 hc1 x0 x1 x2 xs0 = step1 i x0 x1 x2 xs0 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero hz2]
  simp only [View.readAt_eq_ld, harg2.read_unread, harg3.read_unread, harg4.read_unread, harg6.read_unread, View.readCov_unit_zero (S := S1024x256) _ hz2, View.ld_unit_zero (S := S1024x1024) hz2, View.ld_unit_zero (S := S1024x256) hz2]
  rfl

end Cert.KernelIdeal.Fr

end
-- ==== Proof.KI.Fold1.lean ====
/-
  Region 1: the accumulator after each point as ONE fold. At a first column block (t % 8 = 0) the accumulator is
  the step applied to the zero block; at every other point it is the step applied to what the point before left,
  whether or not the point also copies it out; at a last column block (t % 8 = 7) the output block holds the
  accumulator. So at point t the accumulator is the fold of the step over the points 8 (t / 8) … t.
-/
import proofs.«105632_j88545045774670_1_alg».proof.Proof.KI.Pieces1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after point n. -/
def accS (c : Dev nD) (n : ℕ) (hn : n < cfg1.N) : Vec F S1024x256 .f32 := (outsAt1 V c n hn).2

/-- Point n's step on the accumulator, over the point's blocks. -/
def stepAt (c : Dev nD) (n : ℕ) (hn : n < cfg1.N) (acc : Vec F S1024x256 .f32) : Vec F S1024x256 .f32 :=
  step1 (grid1.coords ⟨n, hn⟩) (iblk1 V c 0 ⟨n, hn⟩) (iblk1 V c 1 ⟨n, hn⟩) (iblk1 V c 2 ⟨n, hn⟩) acc

theorem accS_reset (c : Dev nD) (n : ℕ) (h : n < cfg1.N) (h0 : n % 8 = 0) :
    accS V c n h = stepAt V c n h (k1_pay1 (F := F)) := by
  have h1 : ¬ n % 8 = 7 := by omega
  unfold accS stepAt
  refine (congrArg Prod.snd (outsAt1_A V c ⟨n, h⟩ h0 h1)).trans ?_
  dsimp only
  exact sout1_A_0_eq c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) scM1_0 (Memref.isWhole_whole _) ((hcond1_0 ⟨n, h⟩).mpr h0) (fun h' => h1 ((hcond1_1 ⟨n, h⟩).mp h')) (iblk1 V c 0 ⟨n, h⟩) (iblk1 V c 1 ⟨n, h⟩) (iblk1 V c 2 ⟨n, h⟩)

theorem accS_step (c : Dev nD) (n : ℕ) (h : n + 1 < cfg1.N) (h0 : ¬(n + 1) % 8 = 0) :
    accS V c (n + 1) h = stepAt V c (n + 1) h (accS V c n (Nat.lt_of_succ_lt h)) := by
  unfold accS stepAt
  by_cases h1 : (n + 1) % 8 = 7
  · refine (congrArg Prod.snd (outsAt1_C V c ⟨n + 1, h⟩ h0 h1)).trans ?_
    dsimp only
    exact sout1_C_0_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) scM1_0 (Memref.isWhole_whole _) (fun h' => h0 ((hcond1_0 ⟨n + 1, h⟩).mp h')) ((hcond1_1 ⟨n + 1, h⟩).mpr h1) (iblk1 V c 0 ⟨n + 1, h⟩) (iblk1 V c 1 ⟨n + 1, h⟩) (iblk1 V c 2 ⟨n + 1, h⟩) (outsAt1 V c n (Nat.lt_of_succ_lt h)).2
  · refine (congrArg Prod.snd (outsAt1_B V c ⟨n + 1, h⟩ h0 h1)).trans ?_
    dsimp only
    exact sout1_B_0_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) scM1_0 (Memref.isWhole_whole _) (fun h' => h0 ((hcond1_0 ⟨n + 1, h⟩).mp h')) (fun h' => h1 ((hcond1_1 ⟨n + 1, h⟩).mp h')) (iblk1 V c 0 ⟨n + 1, h⟩) (iblk1 V c 1 ⟨n + 1, h⟩) (iblk1 V c 2 ⟨n + 1, h⟩) (outsAt1 V c n (Nat.lt_of_succ_lt h)).2

/-- At a last column block the output block holds the accumulator. -/
theorem out_eq_acc (c : Dev nD) (t : Fin cfg1.N) (h1 : t.val % 8 = 7) :
    (outsAt1 V c t.val t.isLt).1 = accS V c t.val t.isLt := by
  have h0 : ¬ t.val % 8 = 0 := by omega
  unfold accS
  refine (congrArg Prod.fst (outsAt1_C V c t h0 h1)).trans ?_
  refine Eq.trans ?_ (congrArg Prod.snd (outsAt1_C V c t h0 h1)).symm
  dsimp only
  refine (out1_C_3_eq c (grid1.coords t) (ms1_0 t) (hs1_0 t) (ms1_1 t) (hs1_1 t) (ms1_2 t) (hs1_2 t) (ms1_3 t) (hs1_3 t) scM1_0 (Memref.isWhole_whole _) (fun h' => h0 ((hcond1_0 t).mp h')) ((hcond1_1 t).mpr h1) (iblk1 V c 0 t) (iblk1 V c 1 t) (iblk1 V c 2 t) (outsAt1 V c (t.val - 1) (Nat.lt_of_le_of_lt (Nat.sub_le _ _) t.isLt)).2).trans ?_
  exact (sout1_C_0_eq c (grid1.coords t) (ms1_0 t) (hs1_0 t) (ms1_1 t) (hs1_1 t) (ms1_2 t) (hs1_2 t) (ms1_3 t) (hs1_3 t) scM1_0 (Memref.isWhole_whole _) (fun h' => h0 ((hcond1_0 t).mp h')) ((hcond1_1 t).mpr h1) (iblk1 V c 0 t) (iblk1 V c 1 t) (iblk1 V c 2 t) (outsAt1 V c (t.val - 1) (Nat.lt_of_le_of_lt (Nat.sub_le _ _) t.isLt)).2).symm

/-- The accumulator after point t is the fold of the step over the run of points 8 (t / 8) … t. -/
theorem accS_fold (c : Dev nD) (t : ℕ) (ht : t < cfg1.N) (h' : 8 * (t / 8) + t % 8 < cfg1.N) :
    accS V c t ht = Pipeline.accAt (fun n h => stepAt V c n h (k1_pay1 (F := F))) (fun n h acc => stepAt V c n h acc) (8 * (t / 8)) (t % 8) h' :=
  Pipeline.eq_accAt_of_mod (accS V c) 8 _ _ (fun n h h0 => accS_reset V c n h h0) (fun n h h0 => accS_step V c n h h0) (by decide) t ht h'

end Cert.KernelIdeal.Fr

end
-- ==== Proof.KI.Val1a.lean ====
/-
  Region 1 of the kernel program, its layout read index by index.

  The grid has 64 points; point t is the pair (t / 8, t % 8) of a row block and a column block.  At point t the
  pipeline stages block (t / 8, t % 8), of 1024 × 1024 entries, of the adjacency matrix; the feature matrix and
  the gate row are staged whole at every point.  Inside the body the features are read through the rectangle of
  rows 1024·(t % 8) … 1024·(t % 8) + 1023, and the gate row through entries 1024·(t % 8) … 1024·(t % 8) + 1023.
  The output window's block at point t is rows 1024·(t / 8) … of the output; it is written back at the last
  column block of each row of blocks only (t % 8 = 7), so the eight blocks written back are pairwise disjoint, and
  under each of them the output array ends at what that point wrote back.
-/
import proofs.«105632_j88545045774670_1_alg».proof.Proof.KI.Frame1
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-! ## The grid coordinates and the block indices, decided over the 64 points -/

/-- Point `t` is the row block `t / 8` and the column block `t % 8`. -/
theorem coords1_facts : ∀ t : Fin cfg1.N, ((grid1.coords t) 0).val = t.val / 8 ∧ ((grid1.coords t) 1).val = t.val % 8 :=
  (by decide +kernel : ∀ t : Fin grid1.N, ((grid1.coords t) 0).val = t.val / 8 ∧ ((grid1.coords t) 1).val = t.val % 8)

/-- At point `t`: the adjacency block index is `(t / 8, t % 8)`, the output's `(t / 8, 0)`, the two whole
    windows' `(0, 0)`. -/
theorem idx1_facts : ∀ t : Fin cfg1.N, win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

/-- The offsets of the body's load of feature rows, at point `t`. -/
theorem k1_off1_at (t : Fin cfg1.N) : k1_off1 (grid1.coords t) = ![1024 * (t.val % 8), 0] := by
  rw [k1_off1_eq, (coords1_facts t).2]

/-- The offsets of the body's load of gate entries, at point `t`. -/
theorem k1_off2_at (t : Fin cfg1.N) : k1_off2 (grid1.coords t) = ![0, 1024 * (t.val % 8)] := by
  rw [k1_off2_eq, (coords1_facts t).2]

/-! ## The input blocks -/

/-- The adjacency block at point `t` is rows `1024·(t / 8) …` and columns `1024·(t % 8) …` of the adjacency matrix. -/
theorem iblk1_0_apply (c : Dev nD) (t : Fin cfg1.N) (r k : Fin 1024)
    (hr : 1024 * (t.val / 8) + r.val < 8192) (hk : 1024 * (t.val % 8) + k.val < 8192) :
    (iblk1 V c 0 t : Vec F S1024x1024 .f32) (ix2 r k)
      = (V c main_arg0 : S8192x8192.Idx → Elt F .f32) (ix2 ⟨1024 * (t.val / 8) + r.val, hr⟩ ⟨1024 * (t.val % 8) + k.val, hk⟩) := by
  obtain ⟨e0, e1, -⟩ := idx1_facts t
  unfold iblk1
  rw [View.read_apply]
  show V c main_arg0 _ = V c main_arg0 _
  refine congrArg (V c main_arg0) ?_
  funext a
  apply Fin.ext
  match a with
  | ⟨0, _⟩ => show win1_0.index t (0 : Fin 2) * 1024 + 1 * r.val = 1024 * (t.val / 8) + r.val; rw [e0]; omega
  | ⟨1, _⟩ => show win1_0.index t (1 : Fin 2) * 1024 + 1 * k.val = 1024 * (t.val % 8) + k.val; rw [e1]; omega

/-- The feature matrix is staged whole at every point. -/
theorem iblk1_1_eq (c : Dev nD) (t : Fin cfg1.N) :
    (iblk1 V c 1 t : Vec F S8192x256 .f32) = (V c main_arg1 : S8192x256.Idx → Elt F .f32) := by
  obtain ⟨-, -, e0, e1, -⟩ := idx1_facts t
  funext x
  unfold iblk1
  rw [View.read_apply]
  show V c main_arg1 _ = V c main_arg1 x
  refine congrArg (V c main_arg1) ?_
  funext a
  apply Fin.ext
  match a with
  | ⟨0, _⟩ => show win1_1.index t (0 : Fin 2) * 8192 + 1 * (x 0).val = (x 0).val; rw [e0]; omega
  | ⟨1, _⟩ => show win1_1.index t (1 : Fin 2) * 256 + 1 * (x 1).val = (x 1).val; rw [e1]; omega

/-- The gate row is staged whole at every point. -/
theorem iblk1_2_eq (c : Dev nD) (t : Fin cfg1.N) :
    (iblk1 V c 2 t : Vec F S1x8192 .f32) = (V c main_v2 : S1x8192.Idx → Elt F .f32) := by
  obtain ⟨-, -, -, -, e0, e1, -⟩ := idx1_facts t
  funext x
  unfold iblk1
  rw [View.read_apply]
  show V c main_v2 _ = V c main_v2 x
  refine congrArg (V c main_v2) ?_
  funext a
  apply Fin.ext
  match a with
  | ⟨0, _⟩ => show win1_2.index t (0 : Fin 2) * 1 + 1 * (x 0).val = (x 0).val; rw [e0]; omega
  | ⟨1, _⟩ => show win1_2.index t (1 : Fin 2) * 8192 + 1 * (x 1).val = (x 1).val; rw [e1]; omega

/-! ## The body's two loads through a sub-rectangle -/

/-- A load of 1024 rows of a [8192, 256] buffer from row `1024·j` reads row `1024·j + k` at its row `k`. -/
theorem ld_rows1 (x1 : Vec F S8192x256 .f32) (off : Fin 2 → Nat) (inb : ∀ a, off a + S1024x256.size a ≤ S8192x256.size a)
    (j : Nat) (hoff : off = ![1024 * j, 0]) (k : Fin 1024) (d : Fin 256) (h : 1024 * j + k.val < 8192) :
    View.ld x1 (Rect.unit (s := S8192x256) off S1024x256.size inb) (ix2 k d) = x1 (ix2 ⟨1024 * j + k.val, h⟩ d) := by
  subst hoff
  show x1 _ = x1 _
  refine congrArg x1 ?_
  funext a
  apply Fin.ext
  match a with
  | ⟨0, _⟩ => show 1024 * j + 1 * k.val = 1024 * j + k.val; omega
  | ⟨1, _⟩ => show 0 + 1 * d.val = d.val; omega

/-- A load of 1024 entries of a [1, 8192] buffer from entry `1024·j` reads entry `1024·j + k` at its entry `k`. -/
theorem ld_cols1 (x2 : Vec F S1x8192 .f32) (off : Fin 2 → Nat) (inb : ∀ a, off a + S1x1024.size a ≤ S1x8192.size a)
    (j : Nat) (hoff : off = ![0, 1024 * j]) (k : Fin 1024) (h : 1024 * j + k.val < 8192) :
    View.ld x2 (Rect.unit (s := S1x8192) off S1x1024.size inb) (ix2 (0 : Fin 1) k) = x2 (ix2 (0 : Fin 1) ⟨1024 * j + k.val, h⟩) := by
  subst hoff
  show x2 _ = x2 _
  refine congrArg x2 ?_
  funext a
  apply Fin.ext
  match a with
  | ⟨0, _⟩ => show 0 + 1 * 0 = 0; omega
  | ⟨1, _⟩ => show 1024 * j + 1 * k.val = 1024 * j + k.val; omega

/-- The body's load of feature rows at point `t`, at an index: row `1024·(t % 8) + k` of the staged features. -/
theorem ld1_off1_apply (t : Fin cfg1.N) (x1 : Vec F S8192x256 .f32)
    (inb : ∀ a, (k1_off1 (grid1.coords t)) a + S1024x256.size a ≤ S8192x256.size a)
    (k : Fin 1024) (d : Fin 256) (h : 1024 * (t.val % 8) + k.val < 8192) :
    View.ld x1 (Rect.unit (s := S8192x256) (k1_off1 (grid1.coords t)) S1024x256.size inb) (ix2 k d)
      = x1 (ix2 ⟨1024 * (t.val % 8) + k.val, h⟩ d) :=
  ld_rows1 x1 _ inb (t.val % 8) (k1_off1_at t) k d h

/-- The body's load of gate entries at point `t`, at an index: entry `1024·(t % 8) + k` of the staged gate row. -/
theorem ld1_off2_apply (t : Fin cfg1.N) (x2 : Vec F S1x8192 .f32)
    (inb : ∀ a, (k1_off2 (grid1.coords t)) a + S1x1024.size a ≤ S1x8192.size a)
    (k : Fin 1024) (h : 1024 * (t.val % 8) + k.val < 8192) :
    View.ld x2 (Rect.unit (s := S1x8192) (k1_off2 (grid1.coords t)) S1x1024.size inb) (ix2 (0 : Fin 1) k)
      = x2 (ix2 (0 : Fin 1) ⟨1024 * (t.val % 8) + k.val, h⟩) :=
  ld_cols1 x2 _ inb (t.val % 8) (k1_off2_at t) k h

/-! ## The output array under the blocks written back -/

/-- Two points that both write back and have the same output block index are the same point. -/
theorem idx1_3_inj (t t' : Fin cfg1.N) (hf : (cfg1.win 3).flush t = true) (hf' : (cfg1.win 3).flush t' = true)
    (h : win1_3.index t = win1_3.index t') : t = t' := by
  have h7 := (flush1_3 t).mp hf
  have h7' := (flush1_3 t').mp hf'
  obtain ⟨-, -, -, -, -, -, e, -⟩ := idx1_facts t
  obtain ⟨-, -, -, -, -, -, e', -⟩ := idx1_facts t'
  have e0 : win1_3.index t (0 : Fin 2) = win1_3.index t' (0 : Fin 2) := congrFun h 0
  rw [e, e'] at e0
  exact Fin.ext (by omega)

/-- So the blocks written back share no index of the output. -/
theorem disjoint1_3 : ∀ t t' : Fin cfg1.N, (cfg1.win 3).flush t = true → (cfg1.win 3).flush t' = true → t ≠ t' →
    Disjoint ((cfg1.win 3).blk t).view.set ((cfg1.win 3).blk t').view.set :=
  fun t t' hf hf' hne => (cfg1.win 3).disjoint_blk fun h => hne (idx1_3_inj t t' hf hf' h)

/-- What point `t` writes back to the output (where it writes back at all): what the body left in the output
    window's staging buffer at `t`. The window is uncut. -/
theorem flushed1_3 (c : Dev nD) (t : Fin cfg1.N) : (dat1 V c).flushed 3 t = (outsAt1 V c t.val t.isLt).1 := by
  show (cfg1.win 3).cut (grid1.coords t) ((dat1 V c).after 3 t) = _
  rw [after1_3]
  rfl

/-- Under a block written back the output ends at what that point wrote back. -/
theorem arr1_3_emb (c : Dev nD) (t : Fin cfg1.N) (hf : (cfg1.win 3).flush t = true) (y : S1024x256.Idx) :
    (dat1 V c).arrAt 3 cfg1.N (((cfg1.win 3).blk t).view.emb y) = ((dat1 V c).flushed 3 t : Vec F S1024x256 .f32) y := by
  refine ((dat1 V c).arrAt_emb_eq_flushed 3 disjoint1_3 t hf y).trans ?_
  rfl

/-- Row `1024·i + r` of the output after the region is row `r` of what the last column block of row block `i`
    wrote back. -/
theorem arr1_3_apply (c : Dev nD) (i : Fin 8) (r : Fin 1024) (d : Fin 256) (h : 1024 * i.val + r.val < 8192)
    (ht : 8 * i.val + 7 < cfg1.N) :
    ((dat1 V c).arrAt 3 cfg1.N : S8192x256.Idx → Elt F .f32) (ix2 ⟨1024 * i.val + r.val, h⟩ d)
      = ((dat1 V c).flushed 3 ⟨8 * i.val + 7, ht⟩ : Vec F S1024x256 .f32) (ix2 r d) := by
  have hf : (cfg1.win 3).flush ⟨8 * i.val + 7, ht⟩ = true := (flush1_3 _).mpr (by show (8 * i.val + 7) % 8 = 7; omega)
  obtain ⟨-, -, -, -, -, -, e0, e1⟩ := idx1_facts ⟨8 * i.val + 7, ht⟩
  have e : ((cfg1.win 3).blk ⟨8 * i.val + 7, ht⟩).view.emb (ix2 r d) = (ix2 ⟨1024 * i.val + r.val, h⟩ d : S8192x256.Idx) := by
    funext a
    apply Fin.ext
    match a with
    | ⟨0, _⟩ =>
      show win1_3.index ⟨8 * i.val + 7, ht⟩ (0 : Fin 2) * 1024 + 1 * r.val = 1024 * i.val + r.val
      rw [e0]; show (8 * i.val + 7) / 8 * 1024 + 1 * r.val = 1024 * i.val + r.val; omega
    | ⟨1, _⟩ =>
      show win1_3.index ⟨8 * i.val + 7, ht⟩ (1 : Fin 2) * 256 + 1 * d.val = d.val
      rw [e1]; omega
  rw [← e]
  exact arr1_3_emb V c ⟨8 * i.val + 7, ht⟩ hf (ix2 r d)

/-- The same with what was written back named: the output window's staging buffer after that point. -/
theorem arr1_3_outs (c : Dev nD) (i : Fin 8) (r : Fin 1024) (d : Fin 256) (h : 1024 * i.val + r.val < 8192)
    (ht : 8 * i.val + 7 < cfg1.N) :
    ((dat1 V c).arrAt 3 cfg1.N : S8192x256.Idx → Elt F .f32) (ix2 ⟨1024 * i.val + r.val, h⟩ d)
      = (outsAt1 V c (8 * i.val + 7) ht).1 (ix2 r d) := by
  rw [arr1_3_apply V c i r d h ht, flushed1_3]

end Cert.KernelIdeal.Fr

end
-- ==== Proof.KI.PayRows.lean ====
/-
  From the bodies' arithmetic on blocks to the specification's rows.

  A block of the gate body holds 1024 consecutive rows of the node features; the value it stores at place l is the gate of
  the node whose row sits at row l of the block. A step of the aggregate body holds a 1024 by 1024 block of the adjacency
  (rows of one block row, columns of block j), the 1024 gates and the 1024 feature rows of block j; at (r, d) it adds to
  the accumulator the part of the aggregate's sum that runs over the positions 1024 · j … 1024 · j + 1023. The accumulator
  starts from 0 at block 0, so after block 7 it holds the whole sum: the aggregate.
-/
import proofs.«105632_j88545045774670_1_alg».proof.Proof.KI.Pay

noncomputable section

open scoped BigOperators

namespace Cert.KernelIdeal.Pay

open Cert.KernelIdeal Cert.KernelIdeal.Gen Idealize.ShloMosaic Idealize.ShloMosaic.ValueIdx

/-- The gate body's stored value at place l is the gate of node n, when row l of the feature block is row n of the node
    features and the other four operands are the weights and the biases (the biases as one-row matrices). -/
theorem gate_block (H : FVec Ideal ⟨2, ![8192, 256]⟩ .f32) (W1 : FVec Ideal ⟨2, ![256, 64]⟩ .f32)
    (b1 : FVec Ideal ⟨1, ![64]⟩ .f32) (W2 : FVec Ideal ⟨2, ![64, 1]⟩ .f32) (b2 : FVec Ideal ⟨1, ![1]⟩ .f32)
    (v0 : Vec Ideal S1024x256 .f32) (v2 : Vec Ideal S256x64 .f32) (v5 : Vec Ideal S1x64 .f32)
    (v11 : Vec Ideal S64x1 .f32) (v15 : Vec Ideal S1x1 .f32) (l : Fin 1024) (n : Fin 8192)
    (h0 : ∀ d : Fin 256, v0 (ix2 l d) = H (ix2 n d))
    (h2 : ∀ (d : Fin 256) (k : Fin 64), v2 (ix2 d k) = W1 (ix2 d k))
    (h5 : ∀ k : Fin 64, v5 (ix2 (0 : Fin 1) k) = b1 (ix1 k))
    (h11 : ∀ k : Fin 64, v11 (ix2 k (0 : Fin 1)) = W2 (ix2 k (0 : Fin 1)))
    (h15 : v15 (ix2 (0 : Fin 1) (0 : Fin 1)) = b2 (ix1 (0 : Fin 1))) :
    k0_pay1 (F := Ideal) v0 v2 v5 v11 v15 (ix2 (0 : Fin 1) l) = Cert.Spec.gate H W1 b1 W2 b2 n := by
  rw [k0_pay1_apply]
  unfold Cert.Spec.gate
  simp only [h0, h2, h5, h11, h15]

/-- The term of the aggregate's sum at position k: the gate of k where the adjacency entry (n, k) is above 0, else 0,
    times the feature entry (k, d). -/
def aggTerm (g : FVec Ideal ⟨2, ![8192, 8192]⟩ .f32) (h : FVec Ideal ⟨2, ![8192, 256]⟩ .f32) (e : Fin 8192 → EReal)
    (n : Fin 8192) (d : Fin 256) (k : Fin 8192) : EReal :=
  Scalar.select (Ideal.cmp .ogt (g (ix2 n k)) 0) (e k) 0 * h (ix2 k d)

/-- The aggregate is the sum of its terms. -/
theorem agg_eq_sum (g : FVec Ideal ⟨2, ![8192, 8192]⟩ .f32) (h : FVec Ideal ⟨2, ![8192, 256]⟩ .f32) (e : Fin 8192 → EReal)
    (n : Fin 8192) (d : Fin 256) : Cert.Spec.agg g h e n d = ∑ k : Fin 8192, aggTerm g h e n d k := rfl

/-- Position l of block j of a row. -/
abbrev pos (j : Fin 8) (l : Fin 1024) : Fin 8192 := ⟨1024 * j.val + l.val, by have := j.isLt; have := l.isLt; omega⟩

/-- ONE STEP of the aggregate body at (r, d): the accumulator plus block j's part of the aggregate's sum of node n, when
    row r of the adjacency block is row n of the adjacency at the columns of block j, and the gate row and the feature
    block are those of block j. -/
theorem agg_step (g : FVec Ideal ⟨2, ![8192, 8192]⟩ .f32) (h : FVec Ideal ⟨2, ![8192, 256]⟩ .f32) (e : Fin 8192 → EReal)
    (v6 : Vec Ideal S1024x256 .f32) (v8 : Vec Ideal S1x1024 .f32) (v10 : Vec Ideal S1024x1024 .f32)
    (v17 : Vec Ideal S1024x256 .f32) (r : Fin 1024) (d : Fin 256) (n : Fin 8192) (j : Fin 8)
    (h6 : ∀ k : Fin 1024, v6 (ix2 k d) = h (ix2 (pos j k) d))
    (h8 : ∀ k : Fin 1024, v8 (ix2 (0 : Fin 1) k) = e (pos j k))
    (h10 : ∀ k : Fin 1024, v10 (ix2 r k) = g (ix2 n (pos j k))) :
    k1_pay2 (F := Ideal) v6 v8 v10 v17 (ix2 r d) = v17 (ix2 r d) + ∑ k : Fin 1024, aggTerm g h e n d (pos j k) := by
  rw [k1_pay2_apply]
  unfold aggTerm
  simp only [h6, h8, h10]

/-- THE WHOLE ROW OF BLOCKS. A sequence of accumulator values, one per block: the first is a step from 0, each later one
    a step from the one before, block j's step adding block j's part of the aggregate's sum of node n at feature d. Then
    the last of the eight is the aggregate. -/
theorem agg_of_steps (g : FVec Ideal ⟨2, ![8192, 8192]⟩ .f32) (h : FVec Ideal ⟨2, ![8192, 256]⟩ .f32) (e : Fin 8192 → EReal)
    (n : Fin 8192) (d : Fin 256) (a : ℕ → EReal)
    (h0 : a 0 = 0 + ∑ k : Fin 1024, aggTerm g h e n d (pos 0 k))
    (hs : ∀ (j : ℕ) (hj : j + 1 < 8), a (j + 1) = a j + ∑ k : Fin 1024, aggTerm g h e n d (pos ⟨j + 1, hj⟩ k)) :
    a 7 = Cert.Spec.agg g h e n d := by
  let b : ℕ → EReal := fun s => if hs' : s < 8 then ∑ k : Fin 1024, aggTerm g h e n d (pos ⟨s, hs'⟩ k) else 0
  have hb : ∀ (s : ℕ) (hs' : s < 8), b s = ∑ k : Fin 1024, aggTerm g h e n d (pos ⟨s, hs'⟩ k) := fun s hs' => dif_pos hs'
  have hrun : ∀ j : ℕ, j < 8 → a j = Cert.Lib.AxisSums.run b j := by
    intro j
    induction j with
    | zero => intro _; rw [Cert.Lib.AxisSums.run, hb 0 (by omega), h0]; rfl
    | succ j ih =>
      intro hj
      rw [Cert.Lib.AxisSums.run, hb (j + 1) hj, hs j hj, ih (by omega)]
  rw [hrun 7 (by omega), agg_eq_sum]
  exact Cert.Spec.acc_blocks (aggTerm g h e n d) b fun j => hb j.val j.isLt

end Cert.KernelIdeal.Pay

end
-- ==== Proof.KI.Val1.lean ====
/-
  Region 1: the output array after the region is the aggregate of the arrays the region finds.

  Row 1024 · i + r of the output is row r of the block that the last column block of row block i writes back, and that
  block is the accumulator there. The accumulator at point 8 · i + j is the fold of the body's step over the points
  8 · i … 8 · i + j: the first step starts from the zero block, and the step of point 8 · i + s adds, at (r, d), the part of
  the aggregate's sum of node 1024 · i + r at feature d that runs over the positions 1024 · s … 1024 · s + 1023 — its
  adjacency block is rows 1024 · i … and columns 1024 · s … of the adjacency, and the gates and feature rows it loads are
  those of positions 1024 · s …. After the eight steps the accumulator holds 0 plus the eight parts: the whole sum over
  the 8192 positions.
-/
import proofs.«105632_j88545045774670_1_alg».proof.Proof.KI.Fold1
import proofs.«105632_j88545045774670_1_alg».proof.Proof.KI.Val1a
import proofs.«105632_j88545045774670_1_alg».proof.Proof.KI.PayRows

set_option maxRecDepth 16384

noncomputable section

open scoped BigOperators

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx
open Cert.KernelIdeal.Pay (aggTerm pos)

variable (V : (c : Dev nD) → (b : Ref sig .tc) → Buf (Elt Ideal) ((c : Thread nD τ).loc b))

/-- The gates the region finds, as a function of the node. -/
abbrev gates (c : Dev nD) : Fin 8192 → EReal := fun k => (V c main_v2 : S1x8192.Idx → EReal) (ix2 (0 : Fin 1) k)

/-- ONE POINT'S STEP at (r, d), for a point n of row block i: the accumulator plus the part of the aggregate's sum of node
    1024 · i + r at feature d over the positions of column block n % 8. -/
theorem stepAt_apply (c : Dev nD) (i : Fin 8) (n : ℕ) (hn : n < cfg1.N) (hq : n / 8 = i.val)
    (acc : Vec Ideal S1024x256 .f32) (r : Fin 1024) (d : Fin 256) :
    stepAt V c n hn acc (ix2 r d)
      = acc (ix2 r d) + ∑ k : Fin 1024, aggTerm (V c main_arg0) (V c main_arg1) (gates V c) (pos i r) d
          (pos ⟨n % 8, Nat.mod_lt _ (by decide)⟩ k) := by
  have hm : n % 8 < 8 := Nat.mod_lt _ (by decide)
  unfold stepAt step1
  refine Pay.agg_step (V c main_arg0) (V c main_arg1) (gates V c)
    (View.ld (iblk1 V c 1 ⟨n, hn⟩ : Vec Ideal S8192x256 .f32)
      (Rect.unit (s := S8192x256) (k1_off1 (grid1.coords ⟨n, hn⟩)) S1024x256.size (k1_off1_inb (grid1.coords ⟨n, hn⟩))))
    (View.ld (iblk1 V c 2 ⟨n, hn⟩ : Vec Ideal S1x8192 .f32)
      (Rect.unit (s := S1x8192) (k1_off2 (grid1.coords ⟨n, hn⟩)) S1x1024.size (k1_off2_inb (grid1.coords ⟨n, hn⟩))))
    (iblk1 V c 0 ⟨n, hn⟩ : Vec Ideal S1024x1024 .f32) acc r d (pos i r) ⟨n % 8, hm⟩ ?_ ?_ ?_
  · intro k
    have hb : 1024 * (n % 8) + k.val < 8192 := by have := k.isLt; omega
    refine (ld1_off1_apply ⟨n, hn⟩ (iblk1 V c 1 ⟨n, hn⟩ : Vec Ideal S8192x256 .f32) _ k d hb).trans ?_
    exact congrFun (iblk1_1_eq V c ⟨n, hn⟩) _
  · intro k
    have hb : 1024 * (n % 8) + k.val < 8192 := by have := k.isLt; omega
    refine (ld1_off2_apply ⟨n, hn⟩ (iblk1 V c 2 ⟨n, hn⟩ : Vec Ideal S1x8192 .f32) _ k hb).trans ?_
    exact congrFun (iblk1_2_eq V c ⟨n, hn⟩) _
  · intro k
    have hb : 1024 * (n % 8) + k.val < 8192 := by have := k.isLt; omega
    have hr : 1024 * (n / 8) + r.val < 8192 := by have := r.isLt; have := i.isLt; omega
    refine (iblk1_0_apply V c ⟨n, hn⟩ r k hr hb).trans ?_
    refine congrArg (V c main_arg0 : S8192x8192.Idx → EReal) ?_
    funext a
    match a with
    | ⟨0, _⟩ => exact Fin.ext (by show 1024 * (n / 8) + r.val = 1024 * i.val + r.val; rw [hq])
    | ⟨1, _⟩ => rfl

/-- The accumulator after point 8 · i + j is the fold of the step over the points 8 · i … 8 · i + j. -/
theorem accS_run (c : Dev nD) (i : Fin 8) (j : ℕ) (hj : j < 8) (h : 8 * i.val + j < cfg1.N) :
    accS V c (8 * i.val + j) h
      = Pipeline.accAt (fun n h => stepAt V c n h (k1_pay1 (F := Ideal))) (fun n h acc => stepAt V c n h acc) (8 * i.val) j h :=
  Pipeline.eq_accAt (accS V c) 8 _ _ (fun n h h0 => accS_reset V c n h h0) (fun n h h0 => accS_step V c n h h0) i.val j hj h

/-- The accumulator after the last column block of row block i, at (r, d): the aggregate of node 1024 · i + r at
    feature d. The eight steps add the eight blocks' parts of the sum to the zero block. -/
theorem accS_last (c : Dev nD) (i : Fin 8) (h : 8 * i.val + 7 < cfg1.N) (r : Fin 1024) (d : Fin 256) :
    accS V c (8 * i.val + 7) h (ix2 r d) = Cert.Spec.agg (V c main_arg0) (V c main_arg1) (gates V c) (pos i r) d := by
  rw [accS_run V c i 7 (by decide) h]
  have key := Pipeline.accAt_add_apply (N := cfg1.N) (ι := S1024x256.Idx) (β := EReal)
    (fun n h => stepAt V c n h (k1_pay1 (F := Ideal))) (fun n h acc => stepAt V c n h acc)
    (fun _ => 0)
    (fun n idx => ∑ k : Fin 1024, aggTerm (V c main_arg0) (V c main_arg1) (gates V c)
      (pos i ⟨(idx 0).val, idx2_lt0 idx⟩) ⟨(idx 1).val, idx2_lt1 idx⟩ (pos ⟨n % 8, Nat.mod_lt _ (by decide)⟩ k))
    (8 * i.val) 7
    (fun hb idx => by
      obtain ⟨r', d', rfl⟩ : ∃ (r' : Fin 1024) (d' : Fin 256), idx = ix2 r' d' := ⟨idx 0, idx 1, eq_ix2 idx⟩
      refine (stepAt_apply V c i (8 * i.val) hb (by omega) _ r' d').trans ?_
      rw [Pay.k1_pay1_apply])
    (fun n hn acc idx hlo hhi => by
      obtain ⟨r', d', rfl⟩ : ∃ (r' : Fin 1024) (d' : Fin 256), idx = ix2 r' d' := ⟨idx 0, idx 1, eq_ix2 idx⟩
      exact stepAt_apply V c i n hn (by omega) acc r' d')
    7 (le_refl 7) h (ix2 r d)
  refine key.trans ?_
  rw [zero_add, Finset.sum_range, Pay.agg_eq_sum, Cert.Spec.sum_blocks]
  refine Finset.sum_congr rfl fun s _ => Finset.sum_congr rfl fun k _ => ?_
  refine congrArg (aggTerm (V c main_arg0) (V c main_arg1) (gates V c) (pos i r) d) (Fin.ext ?_)
  show 1024 * ((8 * i.val + s.val) % 8) + k.val = 1024 * s.val + k.val
  have := s.isLt
  omega

/-- THE OUTPUT ARRAY of the region, at (n, d): the aggregate of node n at feature d, over the adjacency, the node features
    and the gate row the region finds. -/
theorem arr1_3_spec (c : Dev nD) (n : Fin 8192) (d : Fin 256) :
    ((dat1 V c).arrAt 3 cfg1.N : S8192x256.Idx → EReal) (ix2 n d)
      = Cert.Spec.agg (V c main_arg0) (V c main_arg1) (fun k => (V c main_v2 : S1x8192.Idx → EReal) (ix2 (0 : Fin 1) k)) n d := by
  have hN : cfg1.N = 64 := N_1
  have hi : n.val / 1024 < 8 := by have := n.isLt; omega
  have hr : n.val % 1024 < 1024 := Nat.mod_lt _ (by decide)
  obtain ⟨i, r, rfl⟩ : ∃ (i : Fin 8) (r : Fin 1024), n = pos i r :=
    ⟨⟨n.val / 1024, hi⟩, ⟨n.val % 1024, hr⟩, Fin.ext (by show n.val = 1024 * (n.val / 1024) + n.val % 1024; omega)⟩
  have ht : 8 * i.val + 7 < cfg1.N := by rw [hN]; have := i.isLt; omega
  refine (arr1_3_outs V c i r d (pos i r).isLt ht).trans ?_
  have ho := out_eq_acc V c ⟨8 * i.val + 7, ht⟩ (by show (8 * i.val + 7) % 8 = 7; omega)
  refine (congrFun ho (ix2 r d)).trans ?_
  exact accS_last V c i ht r d

end Cert.KernelIdeal.Fr

end
-- ==== Proof.KI.Final.lean ====
/-
  The kernel program's two results are the specification's aggregate and gates of the launch arrays.

  The second result is the host's transpose of the gate row, which the second region leaves as the first region wrote it:
  entry (q, 0) is the gate of node q. The first result is what the second region's write-backs leave: at (n, d) the
  aggregate over the adjacency and the features it found — both as launched — and over the gate row it found, which is
  the row of gates. So the run ends with the two results at the specification's values and the arguments unchanged.
-/
import proofs.«105632_j88545045774670_1_alg».proof.Proof.KI.Gate
import proofs.«105632_j88545045774670_1_alg».proof.Proof.KI.Frame
import proofs.«105632_j88545045774670_1_alg».proof.Proof.KI.Val1

set_option maxRecDepth 16384

noncomputable section

open scoped BigOperators

namespace Cert.KernelIdeal.Fr

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ)

/-- The aggregate depends on its three arguments only. -/
theorem agg_congr {g g' : FVec Ideal ⟨2, ![8192, 8192]⟩ .f32} {h h' : FVec Ideal ⟨2, ![8192, 256]⟩ .f32} {e e' : Fin 8192 → EReal}
    (hg : g = g') (hh : h = h') (he : e = e') (n : Fin 8192) (d : Fin 256) :
    Cert.Spec.agg g h e n d = Cert.Spec.agg g' h' e' n d := by
  subst hg hh he; rfl

/-- THE SECOND RESULT: entry `(q, 0)` of the transposed gate row is the gate of node `q` of the launch arrays. -/
theorem v4_spec (c : Dev nD) :
    Wl4 m c (Proc.devRef .tc main_v4)
      = (fun i : S8192x1.Idx =>
          Cert.Spec.gate (m ((c.tc : Thread nD τ).loc main_arg1)) (m ((c.tc : Thread nD τ).loc main_arg2))
            (m ((c.tc : Thread nD τ).loc main_arg3)) (m ((c.tc : Thread nD τ).loc main_arg4))
            (m ((c.tc : Thread nD τ).loc main_arg5)) ⟨(i 0).val, idx2_lt0 i⟩) := by
  funext i
  obtain ⟨n, u, rfl⟩ : ∃ (n : Fin 8192) (u : Fin 1), i = ix2 n u := ⟨i 0, i 1, eq_ix2 i⟩
  have hu : u = (0 : Fin 1) := Subsingleton.elim _ _
  subst hu
  exact (Wl4_main_v4_apply m c n).trans ((congrFun (Wl3_main_v2 m c) _).trans (gate_row m c n))

/-- THE FIRST RESULT, from the second region's output read at an index (`hspec`): at `(n, d)` the aggregate of the
    launch adjacency and features over the gates of the launch arrays. The second region finds the adjacency and the
    features as launched and the gate row as the first region left it, which is the row of gates. -/
theorem v3_spec_of
    (hspec : ∀ (V : (c : Dev nD) → (b : Ref sig .tc) → Buf (Elt Ideal) ((c : Thread nD τ).loc b)) (c : Dev nD) (n : Fin 8192) (d : Fin 256),
      ((dat1 V c).arrAt 3 cfg1.N : S8192x256.Idx → EReal) (ix2 n d)
        = Cert.Spec.agg (V c main_arg0) (V c main_arg1) (fun k => (V c main_v2 : S1x8192.Idx → EReal) (ix2 (0 : Fin 1) k)) n d)
    (c : Dev nD) :
    (dat1 (Vr2 m) c).arrAt 3 cfg1.N
      = (fun i : S8192x256.Idx =>
          Cert.Spec.agg (m ((c.tc : Thread nD τ).loc main_arg0)) (m ((c.tc : Thread nD τ).loc main_arg1))
            (Cert.Spec.gate (m ((c.tc : Thread nD τ).loc main_arg1)) (m ((c.tc : Thread nD τ).loc main_arg2))
              (m ((c.tc : Thread nD τ).loc main_arg3)) (m ((c.tc : Thread nD τ).loc main_arg4))
              (m ((c.tc : Thread nD τ).loc main_arg5)))
            ⟨(i 0).val, idx2_lt0 i⟩ ⟨(i 1).val, idx2_lt1 i⟩) := by
  funext i
  obtain ⟨n, d, rfl⟩ : ∃ (n : Fin 8192) (d : Fin 256), i = ix2 n d := ⟨i 0, i 1, eq_ix2 i⟩
  refine (hspec (Vr2 m) c n d).trans ?_
  have eg : (fun k : Fin 8192 => (Vr2 m c main_v2 : S1x8192.Idx → EReal) (ix2 (0 : Fin 1) k))
      = Cert.Spec.gate (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) :=
    funext fun k => (congrFun (Wl2_main_v2 m c) _).trans (gate_row m c k)
  exact agg_congr (Wl2_main_arg0 m c) (Wl2_main_arg1 m c) eg n d

/-- THE RUN with both results at the specification's values and the arguments unchanged, from the second region's
    output read at an index (`hspec`). -/
theorem run_spec_of
    (hspec : ∀ (V : (c : Dev nD) → (b : Ref sig .tc) → Buf (Elt Ideal) ((c : Thread nD τ).loc b)) (c : Dev nD) (n : Fin 8192) (d : Fin 256),
      ((dat1 V c).arrAt 3 cfg1.N : S8192x256.Idx → EReal) (ix2 n d)
        = Cert.Spec.agg (V c main_arg0) (V c main_arg1) (fun k => (V c main_v2 : S1x8192.Idx → EReal) (ix2 (0 : Fin 1) k)) n d)
    (ρ : Dev nD → PrngReg) :
    θ_run defs (onTc (τ := τ) (main (F := Ideal))) ⟨m, fun _ => 0, ρ⟩ (fun r => ∀ c : Dev nD,
      r.2.mem ((c.tc : Thread nD τ).loc main_v3)
          = (fun i : S8192x256.Idx =>
              Cert.Spec.agg (m ((c.tc : Thread nD τ).loc main_arg0)) (m ((c.tc : Thread nD τ).loc main_arg1))
                (Cert.Spec.gate (m ((c.tc : Thread nD τ).loc main_arg1)) (m ((c.tc : Thread nD τ).loc main_arg2))
                  (m ((c.tc : Thread nD τ).loc main_arg3)) (m ((c.tc : Thread nD τ).loc main_arg4))
                  (m ((c.tc : Thread nD τ).loc main_arg5)))
                ⟨(i 0).val, idx2_lt0 i⟩ ⟨(i 1).val, idx2_lt1 i⟩)
      ∧ r.2.mem ((c.tc : Thread nD τ).loc main_v4)
          = (fun i : S8192x1.Idx =>
              Cert.Spec.gate (m ((c.tc : Thread nD τ).loc main_arg1)) (m ((c.tc : Thread nD τ).loc main_arg2))
                (m ((c.tc : Thread nD τ).loc main_arg3)) (m ((c.tc : Thread nD τ).loc main_arg4))
                (m ((c.tc : Thread nD τ).loc main_arg5)) ⟨(i 0).val, idx2_lt0 i⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (v3_spec_of m hspec c), (h c).2.1.trans (v4_spec m c), (h c).2.2⟩)
    (run_vals (F := Ideal) m ρ)

/-- THE FIRST RESULT: at `(n, d)` the aggregate of the launch adjacency and features over the gates of the launch arrays. -/
theorem v3_spec (c : Dev nD) :
    (dat1 (Vr2 m) c).arrAt 3 cfg1.N
      = (fun i : S8192x256.Idx =>
          Cert.Spec.agg (m ((c.tc : Thread nD τ).loc main_arg0)) (m ((c.tc : Thread nD τ).loc main_arg1))
            (Cert.Spec.gate (m ((c.tc : Thread nD τ).loc main_arg1)) (m ((c.tc : Thread nD τ).loc main_arg2))
              (m ((c.tc : Thread nD τ).loc main_arg3)) (m ((c.tc : Thread nD τ).loc main_arg4))
              (m ((c.tc : Thread nD τ).loc main_arg5)))
            ⟨(i 0).val, idx2_lt0 i⟩ ⟨(i 1).val, idx2_lt1 i⟩) :=
  v3_spec_of m (fun V c n d => arr1_3_spec V c n d) c

/-- THE RUN: every weakly fair execution terminates, nothing faulting, with the two results at the specification's
    aggregate and gates of the launch arrays and every argument array as launched. -/
theorem run_spec (ρ : Dev nD → PrngReg) :
    θ_run defs (onTc (τ := τ) (main (F := Ideal))) ⟨m, fun _ => 0, ρ⟩ (fun r => ∀ c : Dev nD,
      r.2.mem ((c.tc : Thread nD τ).loc main_v3)
          = (fun i : S8192x256.Idx =>
              Cert.Spec.agg (m ((c.tc : Thread nD τ).loc main_arg0)) (m ((c.tc : Thread nD τ).loc main_arg1))
                (Cert.Spec.gate (m ((c.tc : Thread nD τ).loc main_arg1)) (m ((c.tc : Thread nD τ).loc main_arg2))
                  (m ((c.tc : Thread nD τ).loc main_arg3)) (m ((c.tc : Thread nD τ).loc main_arg4))
                  (m ((c.tc : Thread nD τ).loc main_arg5)))
                ⟨(i 0).val, idx2_lt0 i⟩ ⟨(i 1).val, idx2_lt1 i⟩)
      ∧ r.2.mem ((c.tc : Thread nD τ).loc main_v4)
          = (fun i : S8192x1.Idx =>
              Cert.Spec.gate (m ((c.tc : Thread nD τ).loc main_arg1)) (m ((c.tc : Thread nD τ).loc main_arg2))
                (m ((c.tc : Thread nD τ).loc main_arg3)) (m ((c.tc : Thread nD τ).loc main_arg4))
                (m ((c.tc : Thread nD τ).loc main_arg5)) ⟨(i 0).val, idx2_lt0 i⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_spec_of m (fun V c n d => arr1_3_spec V c n d) ρ

end Cert.KernelIdeal.Fr

end
-- ==== Proof.RefGen.lean ====
/-
  The reference's run and its read-at-an-index lemmas, brought into scope for the modules that state what the
  reference computes.
-/
import proofs.«105632_j88545045774670_1_alg».proof.Proof.Gen.ReferenceIdeal.Run
import proofs.«105632_j88545045774670_1_alg».proof.Proof.Gen.ReferenceIdeal.Read
-- ==== Proof.RefIsSpec.lean ====
/-
  The reference computes the specification.

  Its first result, read at (n, 0), is the gate of node n: the two products are sums over the contracted axis, the bias
  vectors are broadcast along the rows, relu is the maximum with 0, and the sigmoid is spelt 1 / (1 + exp (−x)), which is
  the logistic function. Its second result, read at (n, d), is the aggregate: the gate column is reshaped to a vector and
  broadcast along the rows of the adjacency, the entries are chosen by the comparison with 0, and the product with the
  node features is the sum over all nodes.
-/
import proofs.«105632_j88545045774670_1_alg».proof.Proof.RefGen
import proofs.«105632_j88545045774670_1_alg».proof.Proof.Spec

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- The reference's gate column at (n, 0) is the gate of node n. -/
theorem gate_eq (x1 : (⟨S8192x256, .f32⟩ : BufTy).Contents (Elt Ideal)) (x2 : (⟨S256x64, .f32⟩ : BufTy).Contents (Elt Ideal))
    (x3 : (⟨S64, .f32⟩ : BufTy).Contents (Elt Ideal)) (x4 : (⟨S64x1, .f32⟩ : BufTy).Contents (Elt Ideal))
    (x5 : (⟨S1, .f32⟩ : BufTy).Contents (Elt Ideal)) :
    Read.val_main_v14 (F := Ideal) x1 x2 x3 x4 x5
      = fun i : S8192x1.Idx => Cert.Spec.gate x1 x2 x3 x4 x5 ⟨(i 0).val, idx2_lt0 i⟩ := by
  funext i
  obtain ⟨n, u, rfl⟩ : ∃ (n : Fin 8192) (u : Fin 1), i = ix2 n u := ⟨i 0, i 1, eq_ix2 i⟩
  have hu : u = (0 : Fin 1) := Subsingleton.elim _ _
  subst hu
  have e5l : ∀ k : Fin 64, Read.lidx_main_v5 (ix2 n (0 : Fin 1)) k = ix2 n k := fun k =>
    funext fun a => by match a with | ⟨0, _⟩ => rfl | ⟨1, _⟩ => rfl
  have e5r : ∀ k : Fin 64, Read.ridx_main_v5 (ix2 n (0 : Fin 1)) k = ix2 k (0 : Fin 1) := fun k =>
    funext fun a => by match a with | ⟨0, _⟩ => rfl | ⟨1, _⟩ => rfl
  have e0l : ∀ (k : Fin 64) (d : Fin 256), Read.lidx_main_v0 (ix2 n k) d = ix2 n d := fun k d =>
    funext fun a => by match a with | ⟨0, _⟩ => rfl | ⟨1, _⟩ => rfl
  have e0r : ∀ (k : Fin 64) (d : Fin 256), Read.ridx_main_v0 (ix2 n k) d = ix2 d k := fun k d =>
    funext fun a => by match a with | ⟨0, _⟩ => rfl | ⟨1, _⟩ => rfl
  have e2 : ∀ k : Fin 64, Read.idx_main_v1 (Read.idx_main_v2 (ix2 n k)) = ix1 k := fun k =>
    funext fun a => by match a with | ⟨0, _⟩ => rfl
  have e7 : Read.idx_main_v6 (Read.idx_main_v7 (ix2 n (0 : Fin 1))) = ix1 (0 : Fin 1) :=
    funext fun a => by match a with | ⟨0, _⟩ => rfl
  simp only [Read.val_main_v14_apply, Read.val_main_v13_apply, Read.val_main_cst_0_apply, Read.val_main_v12_apply,
    Read.val_main_v11_apply, Read.val_main_cst_apply, Read.val_main_v10_apply, Read.val_main_v9_apply,
    Read.val_main_v8_apply, Read.val_main_v5_apply, Read.val_main_v7_apply, Read.val_main_v6_apply,
    Read.val_main_v4_apply, Read.val_main_v3_apply, Read.val_main_call0_v0_apply, Read.val_main_call0_cst_apply,
    Read.val_main_v0_apply, Read.val_main_v2_apply, Read.val_main_v1_apply, e5l, e5r, e0l, e0r, e2, e7,
    Ideal.hostDivf_def, Ideal.addf_def, Ideal.hostUnary_exp_def, Ideal.hostNegf_def, Ideal.negf_def, Ideal.maximumf_def,
    Ideal.ofBits_def, Ideal.ofBits_zero_f32, Cert.Spec.ofBits_one_f32]
  rfl

/-- The reference's aggregate at (n, d) is the aggregate of the specification over the gates of the specification. -/
theorem agg_eq (x0 : (⟨S8192x8192, .f32⟩ : BufTy).Contents (Elt Ideal)) (x1 : (⟨S8192x256, .f32⟩ : BufTy).Contents (Elt Ideal))
    (x2 : (⟨S256x64, .f32⟩ : BufTy).Contents (Elt Ideal)) (x3 : (⟨S64, .f32⟩ : BufTy).Contents (Elt Ideal))
    (x4 : (⟨S64x1, .f32⟩ : BufTy).Contents (Elt Ideal)) (x5 : (⟨S1, .f32⟩ : BufTy).Contents (Elt Ideal)) :
    Read.val_main_v20 (F := Ideal) x0 x1 x2 x3 x4 x5
      = fun i : S8192x256.Idx =>
          Cert.Spec.agg x0 x1 (Cert.Spec.gate x1 x2 x3 x4 x5) ⟨(i 0).val, idx2_lt0 i⟩ ⟨(i 1).val, idx2_lt1 i⟩ := by
  funext i
  obtain ⟨n, d, rfl⟩ : ∃ (n : Fin 8192) (d : Fin 256), i = ix2 n d := ⟨i 0, i 1, eq_ix2 i⟩
  rw [Read.val_main_v20_apply]
  refine Finset.sum_congr rfl fun k _ => ?_
  have el : Read.lidx_main_v20 (ix2 n d) k = ix2 n k :=
    funext fun a => by match a with | ⟨0, _⟩ => rfl | ⟨1, _⟩ => rfl
  have er : Read.ridx_main_v20 (ix2 n d) k = ix2 k d :=
    funext fun a => by match a with | ⟨0, _⟩ => rfl | ⟨1, _⟩ => rfl
  have eg : Read.val_main_v14 (F := Ideal) x1 x2 x3 x4 x5
        (Read.idx_main_v17 (Read.idx_main_v18 (Read.idx_main_call1_v0 (ix2 n k))))
      = Cert.Spec.gate x1 x2 x3 x4 x5 k := by
    rw [gate_eq]
    exact congrArg (Cert.Spec.gate x1 x2 x3 x4 x5) (Fin.ext (Nat.div_one _))
  rw [el, er, Read.val_main_v19_apply, Read.val_main_v16_apply, Read.val_main_v15_apply, Read.val_main_cst_1_apply,
    Read.val_main_call1_v0_apply, Read.val_main_v18_apply, Read.val_main_v17_apply, eg, Read.val_main_call1_v1_apply,
    Read.val_main_cst_2_apply, Ideal.cmpf_def, Ideal.ofBits_def, Ideal.ofBits_zero_f32]

/-- The reference runs to the end, leaves its arguments as they were, and its two results are the specification's
    aggregate and gates of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20)
          = (fun i : S8192x256.Idx =>
              Cert.Spec.agg (m ((c.tc : Thread nD τ).loc main_arg0)) (m ((c.tc : Thread nD τ).loc main_arg1))
                (Cert.Spec.gate (m ((c.tc : Thread nD τ).loc main_arg1)) (m ((c.tc : Thread nD τ).loc main_arg2))
                  (m ((c.tc : Thread nD τ).loc main_arg3)) (m ((c.tc : Thread nD τ).loc main_arg4))
                  (m ((c.tc : Thread nD τ).loc main_arg5)))
                ⟨(i 0).val, idx2_lt0 i⟩ ⟨(i 1).val, idx2_lt1 i⟩)
      ∧ r.2.mem ((c.tc : Thread nD τ).loc main_v14)
          = (fun i : S8192x1.Idx =>
              Cert.Spec.gate (m ((c.tc : Thread nD τ).loc main_arg1)) (m ((c.tc : Thread nD τ).loc main_arg2))
                (m ((c.tc : Thread nD τ).loc main_arg3)) (m ((c.tc : Thread nD τ).loc main_arg4))
                (m ((c.tc : Thread nD τ).loc main_arg5)) ⟨(i 0).val, idx2_lt0 i⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c).1.trans ((Read.val_main_v20_eq _ _ _ _ _ _).trans (agg_eq _ _ _ _ _ _)),
        (h c).2.1.trans ((Read.val_main_v14_eq _ _ _ _ _).trans (gate_eq _ _ _ _ _)),
        (h c).2.2⟩)
    (Cert.ReferenceIdeal.Value.run (F := Ideal) m ρ)

/-- The reference's frame: it runs to the end and its arguments end as they began. -/
theorem frame (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => (h c).2.2) (Cert.ReferenceIdeal.Value.run (F := Ideal) m ρ)

end Cert.ReferenceIdeal.RefValue

end
-- ==== Proof.lean ====
/-
  The five conjuncts of the claim, for a two-stage kernel against its plain reference.

  The kernel first computes, 1024 nodes at a time, the per-node gate e = logistic (relu (h W1 + b1) W2 + b2) as a
  row [1, 8192]; then, over an 8 × 8 grid of [1024, 1024] blocks of the adjacency g, it accumulates in a VMEM
  buffer, zeroed at the first column block of every row of blocks, the products (g > 0 ? e : 0) · h of one block each,
  and copies the accumulator to the output rows at the last column block; the host finally transposes the gate row
  into a column. The reference computes the same two arrays in one piece each.

  Frames. Each kernel program's run is assembled from its two regions and the host operations around them, every
  unscoped buffer held at a named valuation between two items (Proof/KI/Run.lean, Proof/K/Run.lean); no item writes
  an argument array, so each ends as launched. The reference's run is the generated one, its results dropped.

  Values, at the ideal instance, where a change of float format is the identity and logistic x is 1 / (1 + exp (-x))
  by definition: region 0's output row is the specification's gate, node by node (Proof/KI/Gate.lean); region 1's
  accumulator after the last column block of a row of blocks is the fold of eight block products, which is the
  reference's sum over all 8192 neighbours regrouped in eight runs of 1024 (Proof/KI/Fold1.lean, Proof/KI/Val1.lean), and the two results are put in the reference's terms in Proof/KI/Final.lean;
  addition of extended reals is commutative and associative and 0 + x = x, so no finiteness is used. The reference's
  two results are the same specification terms (Proof/RefIsSpec.lean), read at arguments that agree.

  The ideal pass rewrote nothing, so the idealization conjunct is trivial.
-/
import proofs.«105632_j88545045774670_1_alg».proof.Defs
import proofs.«105632_j88545045774670_1_alg».proof.Proof.Gen.Kernel
import proofs.«105632_j88545045774670_1_alg».proof.Proof.Gen.KernelIdeal
import proofs.«105632_j88545045774670_1_alg».proof.Proof.Gen.ReferenceIdeal
import proofs.«105632_j88545045774670_1_alg».proof.Proof.Gen.Pre_finite_inputs
import proofs.«105632_j88545045774670_1_alg».proof.Proof.K.Frame
import proofs.«105632_j88545045774670_1_alg».proof.Proof.KI.Final
import proofs.«105632_j88545045774670_1_alg».proof.Proof.RefIsSpec

noncomputable section

namespace Cert.Proof

open Idealize.ShloMosaic Idealize.ShloMosaic.TcCoe Idealize.SL.Sem

theorem frame_k : Cert.frame_Kernel := fun m ρ _ => Cert.Kernel.Fr.frame (F := Bits) m ρ
theorem frame_ki : Cert.frame_KernelIdeal := fun m ρ _ => Cert.KernelIdeal.Fr.frame (F := Ideal) m ρ
theorem frame_ri : Cert.frame_ReferenceIdeal := fun m ρ _ => Cert.ReferenceIdeal.RefValue.frame m ρ
theorem preserves : Cert.preserves_Kernel_KernelIdeal := trivial

/-- Both idealized programs end with the specification's aggregate and gates of the arguments: the kernel's by the
    two regions' values, the reference's by its generated run, at arguments that agree. -/
theorem algebraic : Cert.algebraic_KernelIdeal_ReferenceIdeal := by
  intro m ρ m' ρ' _ hagree
  refine ⟨_, _, Cert.KernelIdeal.Fr.run_spec m ρ, ?_⟩
  refine (θ_run Cert.ReferenceIdeal.defs _ _).mono (fun r h c => ⟨(h c).1.trans ?_, (h c).2.1.trans ?_, (h c).2.2⟩)
    (Cert.ReferenceIdeal.RefValue.run m' ρ')
  · rw [(hagree c).1, (hagree c).2.1, (hagree c).2.2.1, (hagree c).2.2.2.1, (hagree c).2.2.2.2.1, (hagree c).2.2.2.2.2]
  · rw [(hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
